-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x23 : Shape := ⟨2, ![50000, 23]⟩
abbrev S2x640000 : Shape := ⟨2, ![2, 640000]⟩
abbrev S23x128 : Shape := ⟨2, ![23, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S_ : Shape := ⟨0, ![]⟩

class Facts : Prop where
  bcast_S_S50000x23 : S_.BroadcastsInDim S50000x23 (![] : Fin 0 → Fin S50000x23.rank)
  reducesTo_S50000x23_S_d0_1 : S50000x23.ReducesTo [0, 1] S_
  h_S_ : 0 < S_.numel
  bcast_S_S23x128 : S_.BroadcastsInDim S23x128 (![] : Fin 0 → Fin S23x128.rank)
  reducesTo_S23x128_S_d0_1 : S23x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_

variable [Facts]

def fn_part3 {F : FTy → Type} [FloatOps F] (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x12 .f32) (main_arg11 : FVec F S12 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x12 .f32 := Host.absf main_arg10
  let main_cst_16 : FVec F S_ .f32 := constant S_ .f32 0x7F800000#32
  let main_v45 : FVec F S64x12 .f32 := broadcastInDim S64x12 ![] bcast_S_S64x12 main_cst_16
  let main_v46 : IVec S64x12 1 := cmpf .olt main_v44 main_v45
  let main_c_17 : IVec S_ 1 := constantI S_ 1 1#1
  let main_v47 : IVec S_ 1 := (fun x v => Host.reduce IntOp.andi x v reducesTo_S64x12_S_d0_1 h_S_) main_v46 main_c_17
  let main_v48 : IVec S_ 1 := andi main_v43 main_v47
  let main_v49 : FVec F S12 .f32 := Host.absf main_arg11
  let main_cst_18 : FVec F S_ .f32 := constant S_ .f32 0x7F800000#32
  let main_v50 : FVec F S12 .f32 := broadcastInDim S12 ![] bcast_S_S12 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S64x12 .f32) (main_arg11 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x23 .f32) (main_arg1 : IVec S2x640000 32) (main_arg2 : FVec F S23x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S64x12 .f32) (main_arg11 : FVec F S12 .f32) : IVec S_ 1 :=
  let main_v0 : FVec F S50000x23 .f32 := Host.absf main_arg0
  let main_cst : FVec F S_ .f32 := constant S_ .f32 0x7F800000#32
  let main_v1 : FVec F S50000x23 .f32 := broadcastInDim S50000x23 ![] bcast_S_S50000x23 main_cst
  let main_v2 : IVec S50000x23 1 := cmpf .olt main_v0 main_v1
  let main_c : IVec S_ 1 := constantI S_ 1 1#1
  let main_v3 : IVec S_ 1 := (fun x v => Host.reduce IntOp.andi x v reducesTo_S50000x23_S_d0_1 h_S_) main_v2 main_c
  let main_v4 : FVec F S23x128 .f32 := Host.absf main_arg2
  let main_cst_0 : FVec F S_ .f32 := constant S_ .f32 0x7F800000#32
  let main_v5 : FVec F S23x128 .f32 := broadcastInDim S23x128 ![] bcast_S_S23x128 main_cst_0
  let main_v6 : IVec S23x128 1 := cmpf .olt main_v4 main_v5
  let main_c_1 : IVec S_ 1 := constantI S_ 1 1#1
  let main_v7 : IVec S_ 1 := (fun x v => Host.reduce IntOp.andi x v reducesTo_S23x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x23 : Shape := ⟨2, ![50000, 23]⟩
abbrev S2x640000 : Shape := ⟨2, ![2, 640000]⟩
abbrev S23x128 : Shape := ⟨2, ![23, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S5000x23 : Shape := ⟨2, ![5000, 23]⟩
abbrev S5000x128 : Shape := ⟨2, ![5000, 128]⟩
abbrev S690000x128 : Shape := ⟨2, ![690000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S1x12 : Shape := ⟨2, ![1, 12]⟩
abbrev S50000x12 : Shape := ⟨2, ![50000, 12]⟩
abbrev S5000x12 : Shape := ⟨2, ![5000, 12]⟩

abbrev nBuf : Space → Nat
  | .hbm => 106
  | .vmem => 42
  | .smem => 0
  | _ => 0

abbrev bufTy : (tb : Table) → Fin (tcTables nBuf tb) → BufTy
  | .hbm, ⟨0, _⟩ => ⟨S50000x23, .f32⟩
  | .hbm, ⟨1, _⟩ => ⟨S2x640000, .i32⟩
  | .hbm, ⟨2, _⟩ => ⟨S23x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x12, .f32⟩
  | .hbm, ⟨11, _⟩ => ⟨S12, .f32⟩
  | .hbm, ⟨12, _⟩ => ⟨S50000, .i32⟩
  | .hbm, ⟨13, _⟩ => ⟨S1x640000, .i32⟩
  | .hbm, ⟨14, _⟩ => ⟨S640000, .i32⟩
  | .hbm, ⟨15, _⟩ => ⟨S690000, .i32⟩
  | .hbm, ⟨16, _⟩ => ⟨S1x640000, .i32⟩
  | .hbm, ⟨17, _⟩ => ⟨S640000, .i32⟩
  | .hbm, ⟨18, _⟩ => ⟨S690000, .i32⟩
  | .hbm, ⟨19, _⟩ => ⟨S_, .f32⟩
  | .hbm, ⟨20, _⟩ => ⟨S690000, .f32⟩
  | .hbm, ⟨21, _⟩ => ⟨S_, .f32⟩
  | .hbm, ⟨22, _⟩ => ⟨S50000, .f32⟩
  | .hbm, ⟨23, _⟩ => ⟨S690000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S690000, .i32⟩
  | .hbm, ⟨28, _⟩ => ⟨S690000, .i1⟩
  | .hbm, ⟨29, _⟩ => ⟨S_, .i32⟩
  | .hbm, ⟨30, _⟩ => ⟨S690000, .i32⟩
  | .hbm, ⟨31, _⟩ => ⟨S690000, .i32⟩
  | .hbm, ⟨32, _⟩ => ⟨S690000, .i32⟩
  | .hbm, ⟨33, _⟩ => ⟨S690000x1, .i32⟩
  | .hbm, ⟨34, _⟩ => ⟨S690000, .f32⟩
  | .hbm, ⟨35, _⟩ => ⟨S_, .i32⟩
  | .hbm, ⟨36, _⟩ => ⟨S690000, .i32⟩
  | .hbm, ⟨37, _⟩ => ⟨S690000, .i1⟩
  | .hbm, ⟨38, _⟩ => ⟨S_, .i32⟩
  | .hbm, ⟨39, _⟩ => ⟨S690000, .i32⟩
  | .hbm, ⟨40, _⟩ => ⟨S690000, .i32⟩
  | .hbm, ⟨41, _⟩ => ⟨S690000, .i32⟩
  | .hbm, ⟨42, _⟩ => ⟨S690000x1, .i32⟩
  | .hbm, ⟨43, _⟩ => ⟨S690000, .f32⟩
  | .hbm, ⟨44, _⟩ => ⟨S690000, .f32⟩
  | .hbm, ⟨45, _⟩ => ⟨S50000x128, .f32⟩
  | .hbm, ⟨46, _⟩ => ⟨S_, .i32⟩
  | .hbm, ⟨47, _⟩ => ⟨S690000, .i32⟩
  | .hbm, ⟨48, _⟩ => ⟨S690000, .i1⟩
  | .hbm, ⟨49, _⟩ => ⟨S_, .i32⟩
  | .hbm, ⟨50, _⟩ => ⟨S690000, .i32⟩
  | .hbm, ⟨51, _⟩ => ⟨S690000, .i32⟩
  | .hbm, ⟨52, _⟩ => ⟨S690000, .i32⟩
  | .hbm, ⟨53, _⟩ => ⟨S690000x1, .i32⟩
  | .hbm, ⟨54, _⟩ => ⟨S690000x128, .f32⟩
  | .hbm, ⟨55, _⟩ => ⟨S690000x1, .f32⟩
  | .hbm, ⟨56, _⟩ => ⟨S690000x128, .f32⟩
  | .hbm, ⟨57, _⟩ => ⟨S690000x128, .f32⟩
  | .hbm, ⟨58, _⟩ => ⟨S_, .f32⟩
  | .hbm, ⟨59, _⟩ => ⟨S50000x128, .f32⟩
  | .hbm, ⟨60, _⟩ => ⟨S690000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S690000, .i32⟩
  | .hbm, ⟨67, _⟩ => ⟨S690000, .i1⟩
  | .hbm, ⟨68, _⟩ => ⟨S_, .i32⟩
  | .hbm, ⟨69, _⟩ => ⟨S690000, .i32⟩
  | .hbm, ⟨70, _⟩ => ⟨S690000, .i32⟩
  | .hbm, ⟨71, _⟩ => ⟨S690000, .i32⟩
  | .hbm, ⟨72, _⟩ => ⟨S690000x1, .i32⟩
  | .hbm, ⟨73, _⟩ => ⟨S690000x128, .f32⟩
  | .hbm, ⟨74, _⟩ => ⟨S690000x1, .f32⟩
  | .hbm, ⟨75, _⟩ => ⟨S690000x128, .f32⟩
  | .hbm, ⟨76, _⟩ => ⟨S690000x128, .f32⟩
  | .hbm, ⟨77, _⟩ => ⟨S_, .f32⟩
  | .hbm, ⟨78, _⟩ => ⟨S50000x128, .f32⟩
  | .hbm, ⟨79, _⟩ => ⟨S690000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S690000, .i32⟩
  | .hbm, ⟨86, _⟩ => ⟨S690000, .i1⟩
  | .hbm, ⟨87, _⟩ => ⟨S_, .i32⟩
  | .hbm, ⟨88, _⟩ => ⟨S690000, .i32⟩
  | .hbm, ⟨89, _⟩ => ⟨S690000, .i32⟩
  | .hbm, ⟨90, _⟩ => ⟨S690000, .i32⟩
  | .hbm, ⟨91, _⟩ => ⟨S690000x1, .i32⟩
  | .hbm, ⟨92, _⟩ => ⟨S690000x128, .f32⟩
  | .hbm, ⟨93, _⟩ => ⟨S690000x1, .f32⟩
  | .hbm, ⟨94, _⟩ => ⟨S690000x128, .f32⟩
  | .hbm, ⟨95, _⟩ => ⟨S690000x128, .f32⟩
  | .hbm, ⟨96, _⟩ => ⟨S_, .f32⟩
  | .hbm, ⟨97, _⟩ => ⟨S50000x128, .f32⟩
  | .hbm, ⟨98, _⟩ => ⟨S690000x1, .i32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S1x64, .f32⟩
  | .hbm, ⟨103, _⟩ => ⟨S50000x64, .f32⟩
  | .hbm, ⟨104, _⟩ => ⟨S1x12, .f32⟩
  | .hbm, ⟨105, _⟩ => ⟨S50000x12, .f32⟩
  | .local _ .vmem, ⟨0, _⟩ => ⟨S5000x23, .f32⟩
  | .local _ .vmem, ⟨1, _⟩ => ⟨S5000x23, .f32⟩
  | .local _ .vmem, ⟨2, _⟩ => ⟨S23x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x12, .f32⟩
  | .local _ .vmem, ⟨39, _⟩ => ⟨S1x12, .f32⟩
  | .local _ .vmem, ⟨40, _⟩ => ⟨S5000x12, .f32⟩
  | .local _ .vmem, ⟨41, _⟩ => ⟨S5000x12, .f32⟩
  | _, _ => ⟨S50000x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S23x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x12 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x12 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x12 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x23_S5000x23_0_0 : ∀ a, (![0, 0] : Fin 2 → Nat) a + S5000x23.size a ≤ S5000x23.size a
  h_S5000x23 : 0 < S5000x23.numel
  bitsLt_bf16_f32 : FTy.bits .bf16 < FTy.bits .f32
  inb_S23x128_S23x128_0_0 : ∀ a, (![0, 0] : Fin 2 → Nat) a + S23x128.size a ≤ S23x128.size a
  h_S23x128 : 0 < S23x128.numel
  inb_S5000x128_S5000x128_0_0 : ∀ a, (![0, 0] : Fin 2 → Nat) a + S5000x128.size a ≤ S5000x128.size a
  h_S5000x128 : 0 < S5000x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S12_S1x12 : S12.ShapeCasts S1x12
  shapeCasts_S5000x64_S5000x64 : S5000x64.ShapeCasts S5000x64
  inb_S64x12_S64x12_0_0 : ∀ a, (![0, 0] : Fin 2 → Nat) a + S64x12.size a ≤ S64x12.size a
  h_S64x12 : 0 < S64x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S5000x12_S5000x12_0_0 : ∀ a, (![0, 0] : Fin 2 → Nat) a + S5000x12.size a ≤ S5000x12.size a
  h_S5000x12 : 0 < S5000x12.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x23_S23x128_S5000x128_1_0_0_1_n_n_wf : DotDims.WF S5000x23 S23x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x12_S5000x12_1_0_0_1_n_n_wf : DotDims.WF S5000x64 S64x12 S5000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x23.size a ≤ S50000x23.size a
  hwx0_0 : ∀ i : grid0.Coords, EltTy.bits .f32 = 32 ∨ (Rect.block (s := S50000x23) S5000x23.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x128.size a ≤ S23x128.size a
  hwx0_1 : ∀ i : grid0.Coords, EltTy.bits .f32 = 32 ∨ (Rect.block (s := S23x128) S23x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x12.size a ≤ S64x12.size a
  hwx7_1 : ∀ i : grid7.Coords, EltTy.bits .f32 = 32 ∨ (Rect.block (s := S64x12) S64x12.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x12.size a ≤ S1x12.size a
  hwx7_2 : ∀ i : grid7.Coords, EltTy.bits .f32 = 32 ∨ (Rect.block (s := S1x12) S1x12.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x12.size a ≤ S50000x12.size a
  hwx7_3 : ∀ i : grid7.Coords, EltTy.bits .f32 = 32 ∨ (Rect.block (s := S50000x12) S5000x12.size (cc7_transform_3 i) (hinb7_3 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x23_S23x128_S5000x128_1_0_0_1_n_n : DotDims S5000x23 S23x128 S5000x128 where
  lhsContracting := [1]
  rhsContracting := [0]
  lhsNonContracting := [0]
  rhsNonContracting := [1]
  lhsBatch := []
  rhsBatch := []
  wf := dot_S5000x23_S23x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x12_S5000x12_1_0_0_1_n_n : DotDims S5000x64 S64x12 S5000x12 where
  lhsContracting := [1]
  rhsContracting := [0]
  lhsNonContracting := [0]
  rhsNonContracting := [1]
  lhsBatch := []
  rhsBatch := []
  wf := dot_S5000x64_S64x12_S5000x12_1_0_0_1_n_n_wf

abbrev win0_0 : Pipeline.Window sig grid0 :=
  Pipeline.Window.ofSpec (Memref.whole main_arg0) S5000x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S23x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v76) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v76) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x12.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v77) S1x12.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v78) S5000x12.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x23 : Shape := ⟨2, ![50000, 23]⟩
abbrev S2x640000 : Shape := ⟨2, ![2, 640000]⟩
abbrev S23x128 : Shape := ⟨2, ![23, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S690000x128 : Shape := ⟨2, ![690000, 128]⟩
abbrev S1x128 : Shape := ⟨2, ![1, 128]⟩
abbrev S50000x64 : Shape := ⟨2, ![50000, 64]⟩
abbrev S1x64 : Shape := ⟨2, ![1, 64]⟩
abbrev S50000x12 : Shape := ⟨2, ![50000, 12]⟩
abbrev S1x12 : Shape := ⟨2, ![1, 12]⟩

abbrev nBuf : Space → Nat
  | .hbm => 116
  | .vmem => 0
  | .smem => 0
  | _ => 0

abbrev bufTy : (tb : Table) → Fin (tcTables nBuf tb) → BufTy
  | .hbm, ⟨0, _⟩ => ⟨S50000x23, .f32⟩
  | .hbm, ⟨1, _⟩ => ⟨S2x640000, .i32⟩
  | .hbm, ⟨2, _⟩ => ⟨S23x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x12, .f32⟩
  | .hbm, ⟨11, _⟩ => ⟨S12, .f32⟩
  | .hbm, ⟨12, _⟩ => ⟨S50000, .i32⟩
  | .hbm, ⟨13, _⟩ => ⟨S1x640000, .i32⟩
  | .hbm, ⟨14, _⟩ => ⟨S640000, .i32⟩
  | .hbm, ⟨15, _⟩ => ⟨S690000, .i32⟩
  | .hbm, ⟨16, _⟩ => ⟨S1x640000, .i32⟩
  | .hbm, ⟨17, _⟩ => ⟨S640000, .i32⟩
  | .hbm, ⟨18, _⟩ => ⟨S690000, .i32⟩
  | .hbm, ⟨19, _⟩ => ⟨S_, .f32⟩
  | .hbm, ⟨20, _⟩ => ⟨S690000, .f32⟩
  | .hbm, ⟨21, _⟩ => ⟨S_, .f32⟩
  | .hbm, ⟨22, _⟩ => ⟨S50000, .f32⟩
  | .hbm, ⟨23, _⟩ => ⟨S690000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S690000, .i32⟩
  | .hbm, ⟨28, _⟩ => ⟨S690000, .i1⟩
  | .hbm, ⟨29, _⟩ => ⟨S_, .i32⟩
  | .hbm, ⟨30, _⟩ => ⟨S690000, .i32⟩
  | .hbm, ⟨31, _⟩ => ⟨S690000, .i32⟩
  | .hbm, ⟨32, _⟩ => ⟨S690000, .i32⟩
  | .hbm, ⟨33, _⟩ => ⟨S690000x1, .i32⟩
  | .hbm, ⟨34, _⟩ => ⟨S690000, .f32⟩
  | .hbm, ⟨35, _⟩ => ⟨S_, .i32⟩
  | .hbm, ⟨36, _⟩ => ⟨S690000, .i32⟩
  | .hbm, ⟨37, _⟩ => ⟨S690000, .i1⟩
  | .hbm, ⟨38, _⟩ => ⟨S_, .i32⟩
  | .hbm, ⟨39, _⟩ => ⟨S690000, .i32⟩
  | .hbm, ⟨40, _⟩ => ⟨S690000, .i32⟩
  | .hbm, ⟨41, _⟩ => ⟨S690000, .i32⟩
  | .hbm, ⟨42, _⟩ => ⟨S690000x1, .i32⟩
  | .hbm, ⟨43, _⟩ => ⟨S690000, .f32⟩
  | .hbm, ⟨44, _⟩ => ⟨S690000, .f32⟩
  | .hbm, ⟨45, _⟩ => ⟨S50000x128, .f32⟩
  | .hbm, ⟨46, _⟩ => ⟨S_, .i32⟩
  | .hbm, ⟨47, _⟩ => ⟨S690000, .i32⟩
  | .hbm, ⟨48, _⟩ => ⟨S690000, .i1⟩
  | .hbm, ⟨49, _⟩ => ⟨S_, .i32⟩
  | .hbm, ⟨50, _⟩ => ⟨S690000, .i32⟩
  | .hbm, ⟨51, _⟩ => ⟨S690000, .i32⟩
  | .hbm, ⟨52, _⟩ => ⟨S690000, .i32⟩
  | .hbm, ⟨53, _⟩ => ⟨S690000x1, .i32⟩
  | .hbm, ⟨54, _⟩ => ⟨S690000x128, .f32⟩
  | .hbm, ⟨55, _⟩ => ⟨S690000x1, .f32⟩
  | .hbm, ⟨56, _⟩ => ⟨S690000x128, .f32⟩
  | .hbm, ⟨57, _⟩ => ⟨S690000x128, .f32⟩
  | .hbm, ⟨58, _⟩ => ⟨S_, .f32⟩
  | .hbm, ⟨59, _⟩ => ⟨S50000x128, .f32⟩
  | .hbm, ⟨60, _⟩ => ⟨S690000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S690000, .i32⟩
  | .hbm, ⟨69, _⟩ => ⟨S690000, .i1⟩
  | .hbm, ⟨70, _⟩ => ⟨S_, .i32⟩
  | .hbm, ⟨71, _⟩ => ⟨S690000, .i32⟩
  | .hbm, ⟨72, _⟩ => ⟨S690000, .i32⟩
  | .hbm, ⟨73, _⟩ => ⟨S690000, .i32⟩
  | .hbm, ⟨74, _⟩ => ⟨S690000x1, .i32⟩
  | .hbm, ⟨75, _⟩ => ⟨S690000x128, .f32⟩
  | .hbm, ⟨76, _⟩ => ⟨S690000x1, .f32⟩
  | .hbm, ⟨77, _⟩ => ⟨S690000x128, .f32⟩
  | .hbm, ⟨78, _⟩ => ⟨S690000x128, .f32⟩
  | .hbm, ⟨79, _⟩ => ⟨S_, .f32⟩
  | .hbm, ⟨80, _⟩ => ⟨S50000x128, .f32⟩
  | .hbm, ⟨81, _⟩ => ⟨S690000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S690000, .i32⟩
  | .hbm, ⟨90, _⟩ => ⟨S690000, .i1⟩
  | .hbm, ⟨91, _⟩ => ⟨S_, .i32⟩
  | .hbm, ⟨92, _⟩ => ⟨S690000, .i32⟩
  | .hbm, ⟨93, _⟩ => ⟨S690000, .i32⟩
  | .hbm, ⟨94, _⟩ => ⟨S690000, .i32⟩
  | .hbm, ⟨95, _⟩ => ⟨S690000x1, .i32⟩
  | .hbm, ⟨96, _⟩ => ⟨S690000x128, .f32⟩
  | .hbm, ⟨97, _⟩ => ⟨S690000x1, .f32⟩
  | .hbm, ⟨98, _⟩ => ⟨S690000x128, .f32⟩
  | .hbm, ⟨99, _⟩ => ⟨S690000x128, .f32⟩
  | .hbm, ⟨100, _⟩ => ⟨S_, .f32⟩
  | .hbm, ⟨101, _⟩ => ⟨S50000x128, .f32⟩
  | .hbm, ⟨102, _⟩ => ⟨S690000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S50000x12, .f32⟩
  | .hbm, ⟨113, _⟩ => ⟨S1x12, .f32⟩
  | .hbm, ⟨114, _⟩ => ⟨S50000x12, .f32⟩
  | .hbm, ⟨115, _⟩ => ⟨S50000x12, .f32⟩
  | _, _ => ⟨S50000x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S12_S1x12_1 : S12.BroadcastsInDim S1x12 (![1] : Fin 1 → Fin S1x12.rank)
  bcast_S1x12_S50000x12_0_1 : S1x12.BroadcastsInDim S50000x12 (![0, 1] : Fin 2 → Fin S50000x12.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x23_S23x128_S50000x128_1_0_0_1_n_n_wf : DotDims.WF S50000x23 S23x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x12_S50000x12_1_0_0_1_n_n_wf : DotDims.WF S50000x64 S64x12 S50000x12 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x23_S23x128_S50000x128_1_0_0_1_n_n : DotDims S50000x23 S23x128 S50000x128 where
  lhsContracting := [1]
  rhsContracting := [0]
  lhsNonContracting := [0]
  rhsNonContracting := [1]
  lhsBatch := []
  rhsBatch := []
  wf := dot_S50000x23_S23x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x12_S50000x12_1_0_0_1_n_n : DotDims S50000x64 S64x12 S50000x12 where
  lhsContracting := [1]
  rhsContracting := [0]
  lhsNonContracting := [0]
  rhsNonContracting := [1]
  lhsBatch := []
  rhsBatch := []
  wf := dot_S50000x64_S64x12_S50000x12_1_0_0_1_n_n_wf

class Facts : Prop extends Facts₀ where

variable [Facts]
-- ==== Proof.NamedRun.lean ====
/-
  The idealized kernel's run with its result named.

  The program is fourteen segments: six stretches of host operations and eight pallas regions.  The buffer contents
  at each segment boundary are a fold from the launch memory: a host stretch applies its operations, a region
  replaces its output array by what its grid points' write-backs leave and keeps everything else.  Every weakly fair
  execution terminates without a fault in a state whose unscoped buffers hold the last boundary's contents; so the
  result buffer holds the last boundary's contents at the result, and each argument holds what it held at launch.
-/
import proofs.«169234_j1898375545326_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v78) = W14 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v78 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.NamedRun

end
-- ==== Proof.ChainKeep.lean ====
/-
  Buffers that a stretch of the program leaves alone.

  Every buffer of the program is written once: an argument never, a host operation's result by that operation, a
  region's output by that region.  So from the boundary after its writer on, a buffer holds the same contents at
  every later segment boundary.  The lemmas below walk the buffers the value argument needs from the boundary where
  they are known to the boundary where they are read: across a host stretch because none of its operations writes
  the buffer, across a region because the buffer is none of the region's arrays.
-/
import proofs.«169234_j1898375545326_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch writes the buffer, so the stretch keeps its contents. -/
macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
theorem arg0_1 : W1 m ρ c (Proc.devRef .tc main_arg0) = m ((c : Thread nD τ).loc main_arg0) :=
  (by keeps hostOps0 : W1 m ρ c (Proc.devRef .tc main_arg0) = W0 m ρ c (Proc.devRef .tc main_arg0))

theorem arg2_1 : W1 m ρ c (Proc.devRef .tc main_arg2) = m ((c : Thread nD τ).loc main_arg2) :=
  (by keeps hostOps0 : W1 m ρ c (Proc.devRef .tc main_arg2) = W0 m ρ c (Proc.devRef .tc main_arg2))

theorem arg3_1 : W1 m ρ c (Proc.devRef .tc main_arg3) = m ((c : Thread nD τ).loc main_arg3) :=
  (by keeps hostOps0 : W1 m ρ c (Proc.devRef .tc main_arg3) = W0 m ρ c (Proc.devRef .tc main_arg3))
theorem arg3_2 : W2 m ρ c (Proc.devRef .tc main_arg3) = m ((c : Thread nD τ).loc main_arg3) :=
  (W2_of_ne m ρ c main_arg3 (by decide)).trans (arg3_1 m ρ c)

theorem arg4_1 : W1 m ρ c (Proc.devRef .tc main_arg4) = m ((c : Thread nD τ).loc main_arg4) :=
  (by keeps hostOps0 : W1 m ρ c (Proc.devRef .tc main_arg4) = W0 m ρ c (Proc.devRef .tc main_arg4))
theorem arg4_2 : W2 m ρ c (Proc.devRef .tc main_arg4) = m ((c : Thread nD τ).loc main_arg4) :=
  (W2_of_ne m ρ c main_arg4 (by decide)).trans (arg4_1 m ρ c)
theorem arg4_3 : W3 m ρ c (Proc.devRef .tc main_arg4) = m ((c : Thread nD τ).loc main_arg4) :=
  (by keeps hostOps1 : W3 m ρ c (Proc.devRef .tc main_arg4) = W2 m ρ c (Proc.devRef .tc main_arg4)).trans (arg4_2 m ρ c)
theorem arg4_4 : W4 m ρ c (Proc.devRef .tc main_arg4) = m ((c : Thread nD τ).loc main_arg4) :=
  (W4_of_ne m ρ c main_arg4 (by decide)).trans (arg4_3 m ρ c)

theorem arg5_1 : W1 m ρ c (Proc.devRef .tc main_arg5) = m ((c : Thread nD τ).loc main_arg5) :=
  (by keeps hostOps0 : W1 m ρ c (Proc.devRef .tc main_arg5) = W0 m ρ c (Proc.devRef .tc main_arg5))
theorem arg5_2 : W2 m ρ c (Proc.devRef .tc main_arg5) = m ((c : Thread nD τ).loc main_arg5) :=
  (W2_of_ne m ρ c main_arg5 (by decide)).trans (arg5_1 m ρ c)
theorem arg5_3 : W3 m ρ c (Proc.devRef .tc main_arg5) = m ((c : Thread nD τ).loc main_arg5) :=
  (by keeps hostOps1 : W3 m ρ c (Proc.devRef .tc main_arg5) = W2 m ρ c (Proc.devRef .tc main_arg5)).trans (arg5_2 m ρ c)
theorem arg5_4 : W4 m ρ c (Proc.devRef .tc main_arg5) = m ((c : Thread nD τ).loc main_arg5) :=
  (W4_of_ne m ρ c main_arg5 (by decide)).trans (arg5_3 m ρ c)
theorem arg5_5 : W5 m ρ c (Proc.devRef .tc main_arg5) = m ((c : Thread nD τ).loc main_arg5) :=
  (W5_of_ne m ρ c main_arg5 (by decide)).trans (arg5_4 m ρ c)

theorem arg6_1 : W1 m ρ c (Proc.devRef .tc main_arg6) = m ((c : Thread nD τ).loc main_arg6) :=
  (by keeps hostOps0 : W1 m ρ c (Proc.devRef .tc main_arg6) = W0 m ρ c (Proc.devRef .tc main_arg6))
theorem arg6_2 : W2 m ρ c (Proc.devRef .tc main_arg6) = m ((c : Thread nD τ).loc main_arg6) :=
  (W2_of_ne m ρ c main_arg6 (by decide)).trans (arg6_1 m ρ c)
theorem arg6_3 : W3 m ρ c (Proc.devRef .tc main_arg6) = m ((c : Thread nD τ).loc main_arg6) :=
  (by keeps hostOps1 : W3 m ρ c (Proc.devRef .tc main_arg6) = W2 m ρ c (Proc.devRef .tc main_arg6)).trans (arg6_2 m ρ c)
theorem arg6_4 : W4 m ρ c (Proc.devRef .tc main_arg6) = m ((c : Thread nD τ).loc main_arg6) :=
  (W4_of_ne m ρ c main_arg6 (by decide)).trans (arg6_3 m ρ c)
theorem arg6_5 : W5 m ρ c (Proc.devRef .tc main_arg6) = m ((c : Thread nD τ).loc main_arg6) :=
  (W5_of_ne m ρ c main_arg6 (by decide)).trans (arg6_4 m ρ c)
theorem arg6_6 : W6 m ρ c (Proc.devRef .tc main_arg6) = m ((c : Thread nD τ).loc main_arg6) :=
  (by keeps hostOps3 : W6 m ρ c (Proc.devRef .tc main_arg6) = W5 m ρ c (Proc.devRef .tc main_arg6)).trans (arg6_5 m ρ c)
theorem arg6_7 : W7 m ρ c (Proc.devRef .tc main_arg6) = m ((c : Thread nD τ).loc main_arg6) :=
  (W7_of_ne m ρ c main_arg6 (by decide)).trans (arg6_6 m ρ c)

theorem arg7_1 : W1 m ρ c (Proc.devRef .tc main_arg7) = m ((c : Thread nD τ).loc main_arg7) :=
  (by keeps hostOps0 : W1 m ρ c (Proc.devRef .tc main_arg7) = W0 m ρ c (Proc.devRef .tc main_arg7))
theorem arg7_2 : W2 m ρ c (Proc.devRef .tc main_arg7) = m ((c : Thread nD τ).loc main_arg7) :=
  (W2_of_ne m ρ c main_arg7 (by decide)).trans (arg7_1 m ρ c)
theorem arg7_3 : W3 m ρ c (Proc.devRef .tc main_arg7) = m ((c : Thread nD τ).loc main_arg7) :=
  (by keeps hostOps1 : W3 m ρ c (Proc.devRef .tc main_arg7) = W2 m ρ c (Proc.devRef .tc main_arg7)).trans (arg7_2 m ρ c)
theorem arg7_4 : W4 m ρ c (Proc.devRef .tc main_arg7) = m ((c : Thread nD τ).loc main_arg7) :=
  (W4_of_ne m ρ c main_arg7 (by decide)).trans (arg7_3 m ρ c)
theorem arg7_5 : W5 m ρ c (Proc.devRef .tc main_arg7) = m ((c : Thread nD τ).loc main_arg7) :=
  (W5_of_ne m ρ c main_arg7 (by decide)).trans (arg7_4 m ρ c)
theorem arg7_6 : W6 m ρ c (Proc.devRef .tc main_arg7) = m ((c : Thread nD τ).loc main_arg7) :=
  (by keeps hostOps3 : W6 m ρ c (Proc.devRef .tc main_arg7) = W5 m ρ c (Proc.devRef .tc main_arg7)).trans (arg7_5 m ρ c)
theorem arg7_7 : W7 m ρ c (Proc.devRef .tc main_arg7) = m ((c : Thread nD τ).loc main_arg7) :=
  (W7_of_ne m ρ c main_arg7 (by decide)).trans (arg7_6 m ρ c)
theorem arg7_8 : W8 m ρ c (Proc.devRef .tc main_arg7) = m ((c : Thread nD τ).loc main_arg7) :=
  (W8_of_ne m ρ c main_arg7 (by decide)).trans (arg7_7 m ρ c)

theorem arg8_1 : W1 m ρ c (Proc.devRef .tc main_arg8) = m ((c : Thread nD τ).loc main_arg8) :=
  (by keeps hostOps0 : W1 m ρ c (Proc.devRef .tc main_arg8) = W0 m ρ c (Proc.devRef .tc main_arg8))
theorem arg8_2 : W2 m ρ c (Proc.devRef .tc main_arg8) = m ((c : Thread nD τ).loc main_arg8) :=
  (W2_of_ne m ρ c main_arg8 (by decide)).trans (arg8_1 m ρ c)
theorem arg8_3 : W3 m ρ c (Proc.devRef .tc main_arg8) = m ((c : Thread nD τ).loc main_arg8) :=
  (by keeps hostOps1 : W3 m ρ c (Proc.devRef .tc main_arg8) = W2 m ρ c (Proc.devRef .tc main_arg8)).trans (arg8_2 m ρ c)
theorem arg8_4 : W4 m ρ c (Proc.devRef .tc main_arg8) = m ((c : Thread nD τ).loc main_arg8) :=
  (W4_of_ne m ρ c main_arg8 (by decide)).trans (arg8_3 m ρ c)
theorem arg8_5 : W5 m ρ c (Proc.devRef .tc main_arg8) = m ((c : Thread nD τ).loc main_arg8) :=
  (W5_of_ne m ρ c main_arg8 (by decide)).trans (arg8_4 m ρ c)
theorem arg8_6 : W6 m ρ c (Proc.devRef .tc main_arg8) = m ((c : Thread nD τ).loc main_arg8) :=
  (by keeps hostOps3 : W6 m ρ c (Proc.devRef .tc main_arg8) = W5 m ρ c (Proc.devRef .tc main_arg8)).trans (arg8_5 m ρ c)
theorem arg8_7 : W7 m ρ c (Proc.devRef .tc main_arg8) = m ((c : Thread nD τ).loc main_arg8) :=
  (W7_of_ne m ρ c main_arg8 (by decide)).trans (arg8_6 m ρ c)
theorem arg8_8 : W8 m ρ c (Proc.devRef .tc main_arg8) = m ((c : Thread nD τ).loc main_arg8) :=
  (W8_of_ne m ρ c main_arg8 (by decide)).trans (arg8_7 m ρ c)
theorem arg8_9 : W9 m ρ c (Proc.devRef .tc main_arg8) = m ((c : Thread nD τ).loc main_arg8) :=
  (by keeps hostOps5 : W9 m ρ c (Proc.devRef .tc main_arg8) = W8 m ρ c (Proc.devRef .tc main_arg8)).trans (arg8_8 m ρ c)
theorem arg8_10 : W10 m ρ c (Proc.devRef .tc main_arg8) = m ((c : Thread nD τ).loc main_arg8) :=
  (W10_of_ne m ρ c main_arg8 (by decide)).trans (arg8_9 m ρ c)
theorem arg8_11 : W11 m ρ c (Proc.devRef .tc main_arg8) = m ((c : Thread nD τ).loc main_arg8) :=
  (by keeps hostOps6 : W11 m ρ c (Proc.devRef .tc main_arg8) = W10 m ρ c (Proc.devRef .tc main_arg8)).trans (arg8_10 m ρ c)

theorem arg9_1 : W1 m ρ c (Proc.devRef .tc main_arg9) = m ((c : Thread nD τ).loc main_arg9) :=
  (by keeps hostOps0 : W1 m ρ c (Proc.devRef .tc main_arg9) = W0 m ρ c (Proc.devRef .tc main_arg9))
theorem arg9_2 : W2 m ρ c (Proc.devRef .tc main_arg9) = m ((c : Thread nD τ).loc main_arg9) :=
  (W2_of_ne m ρ c main_arg9 (by decide)).trans (arg9_1 m ρ c)
theorem arg9_3 : W3 m ρ c (Proc.devRef .tc main_arg9) = m ((c : Thread nD τ).loc main_arg9) :=
  (by keeps hostOps1 : W3 m ρ c (Proc.devRef .tc main_arg9) = W2 m ρ c (Proc.devRef .tc main_arg9)).trans (arg9_2 m ρ c)
theorem arg9_4 : W4 m ρ c (Proc.devRef .tc main_arg9) = m ((c : Thread nD τ).loc main_arg9) :=
  (W4_of_ne m ρ c main_arg9 (by decide)).trans (arg9_3 m ρ c)
theorem arg9_5 : W5 m ρ c (Proc.devRef .tc main_arg9) = m ((c : Thread nD τ).loc main_arg9) :=
  (W5_of_ne m ρ c main_arg9 (by decide)).trans (arg9_4 m ρ c)
theorem arg9_6 : W6 m ρ c (Proc.devRef .tc main_arg9) = m ((c : Thread nD τ).loc main_arg9) :=
  (by keeps hostOps3 : W6 m ρ c (Proc.devRef .tc main_arg9) = W5 m ρ c (Proc.devRef .tc main_arg9)).trans (arg9_5 m ρ c)
theorem arg9_7 : W7 m ρ c (Proc.devRef .tc main_arg9) = m ((c : Thread nD τ).loc main_arg9) :=
  (W7_of_ne m ρ c main_arg9 (by decide)).trans (arg9_6 m ρ c)
theorem arg9_8 : W8 m ρ c (Proc.devRef .tc main_arg9) = m ((c : Thread nD τ).loc main_arg9) :=
  (W8_of_ne m ρ c main_arg9 (by decide)).trans (arg9_7 m ρ c)
theorem arg9_9 : W9 m ρ c (Proc.devRef .tc main_arg9) = m ((c : Thread nD τ).loc main_arg9) :=
  (by keeps hostOps5 : W9 m ρ c (Proc.devRef .tc main_arg9) = W8 m ρ c (Proc.devRef .tc main_arg9)).trans (arg9_8 m ρ c)
theorem arg9_10 : W10 m ρ c (Proc.devRef .tc main_arg9) = m ((c : Thread nD τ).loc main_arg9) :=
  (W10_of_ne m ρ c main_arg9 (by decide)).trans (arg9_9 m ρ c)

theorem arg10_1 : W1 m ρ c (Proc.devRef .tc main_arg10) = m ((c : Thread nD τ).loc main_arg10) :=
  (by keeps hostOps0 : W1 m ρ c (Proc.devRef .tc main_arg10) = W0 m ρ c (Proc.devRef .tc main_arg10))
theorem arg10_2 : W2 m ρ c (Proc.devRef .tc main_arg10) = m ((c : Thread nD τ).loc main_arg10) :=
  (W2_of_ne m ρ c main_arg10 (by decide)).trans (arg10_1 m ρ c)
theorem arg10_3 : W3 m ρ c (Proc.devRef .tc main_arg10) = m ((c : Thread nD τ).loc main_arg10) :=
  (by keeps hostOps1 : W3 m ρ c (Proc.devRef .tc main_arg10) = W2 m ρ c (Proc.devRef .tc main_arg10)).trans (arg10_2 m ρ c)
theorem arg10_4 : W4 m ρ c (Proc.devRef .tc main_arg10) = m ((c : Thread nD τ).loc main_arg10) :=
  (W4_of_ne m ρ c main_arg10 (by decide)).trans (arg10_3 m ρ c)
theorem arg10_5 : W5 m ρ c (Proc.devRef .tc main_arg10) = m ((c : Thread nD τ).loc main_arg10) :=
  (W5_of_ne m ρ c main_arg10 (by decide)).trans (arg10_4 m ρ c)
theorem arg10_6 : W6 m ρ c (Proc.devRef .tc main_arg10) = m ((c : Thread nD τ).loc main_arg10) :=
  (by keeps hostOps3 : W6 m ρ c (Proc.devRef .tc main_arg10) = W5 m ρ c (Proc.devRef .tc main_arg10)).trans (arg10_5 m ρ c)
theorem arg10_7 : W7 m ρ c (Proc.devRef .tc main_arg10) = m ((c : Thread nD τ).loc main_arg10) :=
  (W7_of_ne m ρ c main_arg10 (by decide)).trans (arg10_6 m ρ c)
theorem arg10_8 : W8 m ρ c (Proc.devRef .tc main_arg10) = m ((c : Thread nD τ).loc main_arg10) :=
  (W8_of_ne m ρ c main_arg10 (by decide)).trans (arg10_7 m ρ c)
theorem arg10_9 : W9 m ρ c (Proc.devRef .tc main_arg10) = m ((c : Thread nD τ).loc main_arg10) :=
  (by keeps hostOps5 : W9 m ρ c (Proc.devRef .tc main_arg10) = W8 m ρ c (Proc.devRef .tc main_arg10)).trans (arg10_8 m ρ c)
theorem arg10_10 : W10 m ρ c (Proc.devRef .tc main_arg10) = m ((c : Thread nD τ).loc main_arg10) :=
  (W10_of_ne m ρ c main_arg10 (by decide)).trans (arg10_9 m ρ c)
theorem arg10_11 : W11 m ρ c (Proc.devRef .tc main_arg10) = m ((c : Thread nD τ).loc main_arg10) :=
  (by keeps hostOps6 : W11 m ρ c (Proc.devRef .tc main_arg10) = W10 m ρ c (Proc.devRef .tc main_arg10)).trans (arg10_10 m ρ c)
theorem arg10_12 : W12 m ρ c (Proc.devRef .tc main_arg10) = m ((c : Thread nD τ).loc main_arg10) :=
  (W12_of_ne m ρ c main_arg10 (by decide)).trans (arg10_11 m ρ c)
theorem arg10_13 : W13 m ρ c (Proc.devRef .tc main_arg10) = m ((c : Thread nD τ).loc main_arg10) :=
  (by keeps hostOps7 : W13 m ρ c (Proc.devRef .tc main_arg10) = W12 m ρ c (Proc.devRef .tc main_arg10)).trans (arg10_12 m ρ c)

theorem arg11_1 : W1 m ρ c (Proc.devRef .tc main_arg11) = m ((c : Thread nD τ).loc main_arg11) :=
  (by keeps hostOps0 : W1 m ρ c (Proc.devRef .tc main_arg11) = W0 m ρ c (Proc.devRef .tc main_arg11))
theorem arg11_2 : W2 m ρ c (Proc.devRef .tc main_arg11) = m ((c : Thread nD τ).loc main_arg11) :=
  (W2_of_ne m ρ c main_arg11 (by decide)).trans (arg11_1 m ρ c)
theorem arg11_3 : W3 m ρ c (Proc.devRef .tc main_arg11) = m ((c : Thread nD τ).loc main_arg11) :=
  (by keeps hostOps1 : W3 m ρ c (Proc.devRef .tc main_arg11) = W2 m ρ c (Proc.devRef .tc main_arg11)).trans (arg11_2 m ρ c)
theorem arg11_4 : W4 m ρ c (Proc.devRef .tc main_arg11) = m ((c : Thread nD τ).loc main_arg11) :=
  (W4_of_ne m ρ c main_arg11 (by decide)).trans (arg11_3 m ρ c)
theorem arg11_5 : W5 m ρ c (Proc.devRef .tc main_arg11) = m ((c : Thread nD τ).loc main_arg11) :=
  (W5_of_ne m ρ c main_arg11 (by decide)).trans (arg11_4 m ρ c)
theorem arg11_6 : W6 m ρ c (Proc.devRef .tc main_arg11) = m ((c : Thread nD τ).loc main_arg11) :=
  (by keeps hostOps3 : W6 m ρ c (Proc.devRef .tc main_arg11) = W5 m ρ c (Proc.devRef .tc main_arg11)).trans (arg11_5 m ρ c)
theorem arg11_7 : W7 m ρ c (Proc.devRef .tc main_arg11) = m ((c : Thread nD τ).loc main_arg11) :=
  (W7_of_ne m ρ c main_arg11 (by decide)).trans (arg11_6 m ρ c)
theorem arg11_8 : W8 m ρ c (Proc.devRef .tc main_arg11) = m ((c : Thread nD τ).loc main_arg11) :=
  (W8_of_ne m ρ c main_arg11 (by decide)).trans (arg11_7 m ρ c)
theorem arg11_9 : W9 m ρ c (Proc.devRef .tc main_arg11) = m ((c : Thread nD τ).loc main_arg11) :=
  (by keeps hostOps5 : W9 m ρ c (Proc.devRef .tc main_arg11) = W8 m ρ c (Proc.devRef .tc main_arg11)).trans (arg11_8 m ρ c)
theorem arg11_10 : W10 m ρ c (Proc.devRef .tc main_arg11) = m ((c : Thread nD τ).loc main_arg11) :=
  (W10_of_ne m ρ c main_arg11 (by decide)).trans (arg11_9 m ρ c)
theorem arg11_11 : W11 m ρ c (Proc.devRef .tc main_arg11) = m ((c : Thread nD τ).loc main_arg11) :=
  (by keeps hostOps6 : W11 m ρ c (Proc.devRef .tc main_arg11) = W10 m ρ c (Proc.devRef .tc main_arg11)).trans (arg11_10 m ρ c)
theorem arg11_12 : W12 m ρ c (Proc.devRef .tc main_arg11) = m ((c : Thread nD τ).loc main_arg11) :=
  (W12_of_ne m ρ c main_arg11 (by decide)).trans (arg11_11 m ρ c)

theorem v3_2 : W2 m ρ c (Proc.devRef .tc main_v3) = W1 m ρ c (Proc.devRef .tc main_v3) :=
  (W2_of_ne m ρ c main_v3 (by decide))
theorem v3_3 : W3 m ρ c (Proc.devRef .tc main_v3) = W1 m ρ c (Proc.devRef .tc main_v3) :=
  (by keeps hostOps1 : W3 m ρ c (Proc.devRef .tc main_v3) = W2 m ρ c (Proc.devRef .tc main_v3)).trans (v3_2 m ρ c)
theorem v3_4 : W4 m ρ c (Proc.devRef .tc main_v3) = W1 m ρ c (Proc.devRef .tc main_v3) :=
  (W4_of_ne m ρ c main_v3 (by decide)).trans (v3_3 m ρ c)
theorem v3_5 : W5 m ρ c (Proc.devRef .tc main_v3) = W1 m ρ c (Proc.devRef .tc main_v3) :=
  (W5_of_ne m ρ c main_v3 (by decide)).trans (v3_4 m ρ c)
theorem v3_6 : W6 m ρ c (Proc.devRef .tc main_v3) = W1 m ρ c (Proc.devRef .tc main_v3) :=
  (by keeps hostOps3 : W6 m ρ c (Proc.devRef .tc main_v3) = W5 m ρ c (Proc.devRef .tc main_v3)).trans (v3_5 m ρ c)
theorem v3_7 : W7 m ρ c (Proc.devRef .tc main_v3) = W1 m ρ c (Proc.devRef .tc main_v3) :=
  (W7_of_ne m ρ c main_v3 (by decide)).trans (v3_6 m ρ c)
theorem v3_8 : W8 m ρ c (Proc.devRef .tc main_v3) = W1 m ρ c (Proc.devRef .tc main_v3) :=
  (W8_of_ne m ρ c main_v3 (by decide)).trans (v3_7 m ρ c)

theorem v6_2 : W2 m ρ c (Proc.devRef .tc main_v6) = W1 m ρ c (Proc.devRef .tc main_v6) :=
  (W2_of_ne m ρ c main_v6 (by decide))
theorem v6_3 : W3 m ρ c (Proc.devRef .tc main_v6) = W1 m ρ c (Proc.devRef .tc main_v6) :=
  (by keeps hostOps1 : W3 m ρ c (Proc.devRef .tc main_v6) = W2 m ρ c (Proc.devRef .tc main_v6)).trans (v6_2 m ρ c)
theorem v6_4 : W4 m ρ c (Proc.devRef .tc main_v6) = W1 m ρ c (Proc.devRef .tc main_v6) :=
  (W4_of_ne m ρ c main_v6 (by decide)).trans (v6_3 m ρ c)
theorem v6_5 : W5 m ρ c (Proc.devRef .tc main_v6) = W1 m ρ c (Proc.devRef .tc main_v6) :=
  (W5_of_ne m ρ c main_v6 (by decide)).trans (v6_4 m ρ c)
theorem v6_6 : W6 m ρ c (Proc.devRef .tc main_v6) = W1 m ρ c (Proc.devRef .tc main_v6) :=
  (by keeps hostOps3 : W6 m ρ c (Proc.devRef .tc main_v6) = W5 m ρ c (Proc.devRef .tc main_v6)).trans (v6_5 m ρ c)
theorem v6_7 : W7 m ρ c (Proc.devRef .tc main_v6) = W1 m ρ c (Proc.devRef .tc main_v6) :=
  (W7_of_ne m ρ c main_v6 (by decide)).trans (v6_6 m ρ c)
theorem v6_8 : W8 m ρ c (Proc.devRef .tc main_v6) = W1 m ρ c (Proc.devRef .tc main_v6) :=
  (W8_of_ne m ρ c main_v6 (by decide)).trans (v6_7 m ρ c)

theorem v26_2 : W2 m ρ c (Proc.devRef .tc main_v26) = W1 m ρ c (Proc.devRef .tc main_v26) :=
  (W2_of_ne m ρ c main_v26 (by decide))
theorem v26_3 : W3 m ρ c (Proc.devRef .tc main_v26) = W1 m ρ c (Proc.devRef .tc main_v26) :=
  (by keeps hostOps1 : W3 m ρ c (Proc.devRef .tc main_v26) = W2 m ρ c (Proc.devRef .tc main_v26)).trans (v26_2 m ρ c)
theorem v26_4 : W4 m ρ c (Proc.devRef .tc main_v26) = W1 m ρ c (Proc.devRef .tc main_v26) :=
  (W4_of_ne m ρ c main_v26 (by decide)).trans (v26_3 m ρ c)
theorem v26_5 : W5 m ρ c (Proc.devRef .tc main_v26) = W1 m ρ c (Proc.devRef .tc main_v26) :=
  (W5_of_ne m ρ c main_v26 (by decide)).trans (v26_4 m ρ c)
theorem v26_6 : W6 m ρ c (Proc.devRef .tc main_v26) = W1 m ρ c (Proc.devRef .tc main_v26) :=
  (by keeps hostOps3 : W6 m ρ c (Proc.devRef .tc main_v26) = W5 m ρ c (Proc.devRef .tc main_v26)).trans (v26_5 m ρ c)
theorem v26_7 : W7 m ρ c (Proc.devRef .tc main_v26) = W1 m ρ c (Proc.devRef .tc main_v26) :=
  (W7_of_ne m ρ c main_v26 (by decide)).trans (v26_6 m ρ c)
theorem v26_8 : W8 m ρ c (Proc.devRef .tc main_v26) = W1 m ρ c (Proc.devRef .tc main_v26) :=
  (W8_of_ne m ρ c main_v26 (by decide)).trans (v26_7 m ρ c)

theorem v74_11 : W11 m ρ c (Proc.devRef .tc main_v74) = W10 m ρ c (Proc.devRef .tc main_v74) :=
  (by keeps hostOps6 : W11 m ρ c (Proc.devRef .tc main_v74) = W10 m ρ c (Proc.devRef .tc main_v74))

theorem v76_13 : W13 m ρ c (Proc.devRef .tc main_v76) = W12 m ρ c (Proc.devRef .tc main_v76) :=
  (by keeps hostOps7 : W13 m ρ c (Proc.devRef .tc main_v76) = W12 m ρ c (Proc.devRef .tc main_v76))

end Cert.KernelIdeal.Keep

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«169234_j1898375545326_1_alg».proof.Proof.LibRowWise
import proofs.«169234_j1898375545326_1_alg».proof.Proof.LibMatProd
import proofs.«169234_j1898375545326_1_alg».proof.Proof.LibRowCol
import proofs.«169234_j1898375545326_1_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibTanhLayers.lean ====
/-
  Two more row-wise layers on rank-2 arrays of extended reals, beside the linear layer, and the ways a program
  spells them.

  "tnh a b" adds the one-row array "b" to every row of "a" and takes the hyperbolic tangent of every entry;
  "aff x w b" multiplies every row of "x" by the matrix "w" and then adds the one-row array "b".  Both are
  "rowMap"s, so both commute with cutting out a band of rows.

  A kernel body spells the first as a cast of the loaded block, the loaded one-row block broadcast over the rows,
  a sum and the vector tangent; the host spells it as the bias vector broadcast in two steps, a sum and the host's
  tangent.  At the exact instance both tangents are the one function on the extended reals, so both chains are
  "tnh".  The second layer is a matrix unit's product onto the zero accumulator plus the broadcast one-row block
  in a body, and a dot_general plus the twice-broadcast vector on the host; both are "aff".  No finiteness is
  used anywhere: the two sides of every statement are the same expression entry by entry.
-/
import Idealize.ShloMosaic.Lib.Pipeline.Value
import Idealize.ShloMosaic.Lib.ValueIdx
import Idealize.ShloMosaic.Lib.ValueLayout
import Idealize.ShloMosaic.PureOps.Ideal.Laws
import proofs.«169234_j1898375545326_1_alg».proof.Proof.LibRowWise
import proofs.«169234_j1898375545326_1_alg».proof.Proof.LibMatProd
import proofs.«169234_j1898375545326_1_alg».proof.Proof.LibRowOps

noncomputable section

open scoped BigOperators

namespace TanhLayers

open Idealize.ShloMosaic Idealize.ShloMosaic.ValueIdx GcnSpec

variable {n k q : ℕ}

/-! ## The two row functions and their layers -/

/-- Add the one-row array, then the hyperbolic tangent. -/
def tanhRow (b : Arr 1 k) (z : Fin k → EReal) : Fin k → EReal :=
  fun c => Ideal.tanh (z c + b (ix2 (0 : Fin 1) c))

/-- The row times a matrix, then add the one-row array. -/
def affRow (w : Arr k q) (b : Arr 1 q) (z : Fin k → EReal) : Fin q → EReal :=
  fun c => linRow w z c + b (ix2 (0 : Fin 1) c)

/-- Bias, then the hyperbolic tangent, on every row. -/
def tnh (a : Arr n k) (b : Arr 1 k) : Arr n k := rowMap (tanhRow b) a

/-- Every row times the matrix, plus the bias. -/
def aff (x : Arr n k) (w : Arr k q) (b : Arr 1 q) : Arr n q := rowMap (affRow w b) x

/-! ## Bias, then the hyperbolic tangent -/

/-- As a kernel body spells it: the block and the one-row bias block loaded (casts to their own shapes), the bias
    broadcast over the rows, the vector tangent. -/
theorem tnh_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    tanh (addf (shapeCast ⟨2, ![n, k]⟩ x h1) (broadcastTo ⟨2, ![n, k]⟩ (shapeCast ⟨2, ![1, k]⟩ b h2) hb)) = tnh x b := by
  rw [shapeCast_self, shapeCast_self]
  refine eq_rowMap _ _ _ fun r c => ?_
  show Ideal.tanh (addf x (broadcastTo ⟨2, ![n, k]⟩ b hb) (ix2 r c)) = _
  rw [addf_apply, broadcastTo_1b_ab_apply]
  rfl

/-- As the host spells it: the bias vector broadcast in two steps, the host's tangent. -/
theorem tnh_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    Host.tanh (addf a (broadcastInDim (⟨2, ![n, k]⟩ : Shape) (![0, 1] : Fin 2 → Fin 2) h2
        (broadcastInDim (⟨2, ![1, k]⟩ : Shape) (![1] : Fin 1 → Fin 2) h1 b)))
      = tnh a (shapeCast ⟨2, ![1, k]⟩ b hsc) := by
  refine eq_rowMap _ _ _ fun r c => ?_
  show Ideal.tanh (addf a (broadcastInDim (⟨2, ![n, k]⟩ : Shape) (![0, 1] : Fin 2 → Fin 2) h2
        (broadcastInDim (⟨2, ![1, k]⟩ : Shape) (![1] : Fin 1 → Fin 2) h1 b)) (ix2 r c)) = _
  rw [addf_apply, GcnOps.bias_host_apply b h1 h2 hsc r c]
  rfl

/-! ## The matrix product plus the bias -/

/-- As a kernel body spells it: a matrix unit's product onto the zero accumulator, plus the loaded one-row bias
    block broadcast over the rows. -/
theorem aff_body {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂)
    (b : FVec Ideal (⟨2, ![1, q]⟩ : Shape) .f32)
    (h2 : (⟨2, ![1, q]⟩ : Shape).ShapeCasts ⟨2, ![1, q]⟩) (hb : (⟨2, ![1, q]⟩ : Shape).Broadcasts ⟨2, ![n, q]⟩) :
    addf (FloatOps.matmul d prec lhs rhs (constant (F := Ideal) (⟨2, ![n, q]⟩ : Shape) .f32 0x00000000#32))
        (broadcastTo ⟨2, ![n, q]⟩ (shapeCast ⟨2, ![1, q]⟩ b h2) hb) = aff lhs rhs b := by
  rw [shapeCast_self]
  refine eq_rowMap _ _ _ fun r c => ?_
  rw [addf_apply, MatProd.matmul_zero_entry d prec hr hs hl0 hl1 hr0 hr1 lhs rhs r c, broadcastTo_1b_ab_apply]
  rfl

/-- As the host spells it: a dot_general, plus the bias vector broadcast in two steps. -/
theorem aff_host {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (a : FVec Ideal (⟨2, ![n, k]⟩ : Shape) φ₁) (w : FVec Ideal (⟨2, ![k, q]⟩ : Shape) φ₂)
    (b : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (hsc : (⟨1, ![q]⟩ : Shape).ShapeCasts ⟨2, ![1, q]⟩) :
    addf (FloatOps.dotGeneral d prec sched a w) (broadcastInDim (⟨2, ![n, q]⟩ : Shape) (![0, 1] : Fin 2 → Fin 2) h2
        (broadcastInDim (⟨2, ![1, q]⟩ : Shape) (![1] : Fin 1 → Fin 2) h1 b))
      = aff a w (shapeCast ⟨2, ![1, q]⟩ b hsc) := by
  refine eq_rowMap _ _ _ fun r c => ?_
  rw [addf_apply, GcnOps.dotGeneral_eq_lin d prec sched hr hs hl0 hl1 hr0 hr1 a w, GcnOps.bias_host_apply b h1 h2 hsc r c]
  rfl

end TanhLayers

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Region0.lean ====
/-
  Region 0: ten grid points, point t multiplying rows 5000·t … 5000·t + 4999 of a 50000 × 23 array by the whole
  23 × 128 matrix.  Every entry of a product depends on one row of the left factor only, so the band of rows a
  point writes is the same band of the whole product, and the ten bands tile the 50000 rows: after the region the
  output array is the whole product, as one row-wise layer of the array the region found.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store is the loaded block times the loaded matrix (the two roundings on the way into the matrix
    unit are the identity on extended reals, and the accumulator starts at zero). -/
theorem pay (x0 : FVec Ideal S5000x23 .f32) (x1 : FVec Ideal S23x128 .f32) : k0_pay1 (F := Ideal) x0 x1 = lin x0 x1 :=
  GcnOps.matmul_zero_eq_lin dot_S5000x23_S23x128_S5000x128_1_0_0_1_n_n none
    (Dot2.rank_contr _ rfl) (Dot2.size_contr _ rfl _) (Dot2.lhs0 _ rfl rfl) (Dot2.lhs1 _ rfl _) (Dot2.rhs0 _ rfl _)
    (Dot2.rhs1 _ rfl rfl rfl rfl) (truncf .bf16 x0 bitsLt_bf16_f32) (truncf .bf16 x1 bitsLt_bf16_f32)

/-- The printed index maps over the ten points: the row windows sit at block t, the matrix window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A band of the product is the product of the band: stated over plain arrays and index maps. -/
theorem band (X : S50000x23.Idx → EReal) (M : S23x128.Idx → EReal) (x0 : S5000x23.Idx → EReal) (x1 : S23x128.Idx → EReal)
    (e0 : S5000x23.Idx → S50000x23.Idx) (e2 : S5000x128.Idx → S50000x128.Idx) (o : ℕ)
    (hx0 : x0 = fun y => X (e0 y)) (hx1 : x1 = M)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    lin x0 x1 j = lin X M (e2 j) := by
  subst hx0 hx1
  exact (rowMap_band (linRow x1) X o e0 e2 h10 h11 h20 h21 j).symm

/-- What point t writes back is its band of the whole product. -/
theorem flushed_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S5000x23) hz, View.ld_unit_zero (S := S23x128) hz]
  rw [pay]
  obtain ⟨e0, e1, e2, e3, e4, e5⟩ := idx_facts t
  funext j
  refine band (V c main_arg0) (V c main_arg2) (iblk0 V c 0 t) (iblk0 V c 1 t)
    ((cfg0.win 0).blk t).view.emb ((cfg0.win 2).blk t).view.emb (5000 * t.val) rfl ?_ ?_ ?_ ?_ ?_ j
  · funext y
    show V c main_arg2 (((cfg0.win 1).blk t).view.emb y) = V c main_arg2 y
    refine congrArg (V c main_arg2) (funext fun a => Fin.ext ?_)
    match a with
    | ⟨0, _⟩ => show win0_1.index t (0 : Fin 2) * 23 + 1 * (y 0).val = (y 0).val; omega
    | ⟨1, _⟩ => show win0_1.index t (1 : Fin 2) * 128 + 1 * (y 1).val = (y 1).val; omega
  · intro y; show win0_0.index t (0 : Fin 2) * 5000 + 1 * (y 0).val = 5000 * t.val + (y 0).val; omega
  · intro y; show win0_0.index t (1 : Fin 2) * 23 + 1 * (y 1).val = (y 1).val; omega
  · intro y; show win0_2.index t (0 : Fin 2) * 5000 + 1 * (y 0).val = 5000 * t.val + (y 0).val; omega
  · intro y; show win0_2.index t (1 : Fin 2) * 128 + 1 * (y 1).val = (y 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- THE ARRAY after the region: the whole product of the two arrays the region found. -/
theorem arr (c : Dev nD) : (dat0 V c).arrAt 2 cfg0.N = lin (V c main_arg0) (V c main_arg2) := by
  refine (dat0 V c).arrAt_eq_of_cover 2 (lin (V c main_arg0) (V c main_arg2)) (fun t _ => flushed_eq V c t) fun i => ?_
  have hN : grid0.N = 10 := N_0
  have hi0 : (i 0).val < 50000 := (i 0).isLt
  have hi1 : (i 1).val < 128 := (i 1).isLt
  let t : Fin cfg0.N := ⟨(i 0).val / 5000, by show (i 0).val / 5000 < grid0.N; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Cert.KernelIdeal.Region0

end
-- ==== Proof.ChainA.lean ====
/-
  The host prelude and the first product.

  Before the first region the program computes, from the edge list alone, the source and destination index of every
  edge (with one self-loop per node appended) and the edge's weight 1 / sqrt(deg src · deg dst).  Both programs spell
  these with the same host operations, so the three buffers hold exactly the reference's stages of the same name.
  The first region then leaves the product of the feature array and the first weight matrix, which is the
  reference's dot_general: both are the array whose entry (r, c) is the sum over l of x (r, l) · w (l, c).
-/
import proofs.«169234_j1898375545326_1_alg».proof.Proof.Gen.KernelIdeal.Frame
import proofs.«169234_j1898375545326_1_alg».proof.Proof.Gen.ReferenceIdeal.Read
import proofs.«169234_j1898375545326_1_alg».proof.Proof.ChainKeep
import proofs.«169234_j1898375545326_1_alg».proof.Proof.LibTanhLayers
import proofs.«169234_j1898375545326_1_alg».proof.Proof.LibDot2
import proofs.«169234_j1898375545326_1_alg».proof.Proof.Region0

set_option maxRecDepth 16384

noncomputable section

namespace Cert.KernelIdeal.ChainA

open Cert.KernelIdeal Cert.KernelIdeal.Gen Idealize.ShloMosaic Idealize.ShloMosaic.TcCoe Idealize.SL.Sem
open Idealize.ShloMosaic.StableHlo (after_cons after_nil)
open Cert.ReferenceIdeal.Read GcnSpec TanhLayers

variable (m : (ℓ : Loc nD τ sig) → Buf (Elt Ideal) ℓ) (ρ : Dev nD → PrngReg) (c : Dev nD)

-- the notations below abbreviate the argument arrays at launch; they mention the variables m and c
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

/-- The edges' source indices, then every node once. -/
theorem src_1 : W1 m ρ c (Proc.devRef .tc main_v3) = val_main_v3 (F := Ideal) x1 := by
  show StableHlo.after hostOps0 (W0 m ρ c) (Proc.devRef .tc main_v3) = _
  after_results_simp
  rfl

/-- The edges' destination indices, then every node once. -/
theorem dst_1 : W1 m ρ c (Proc.devRef .tc main_v6) = val_main_v6 (F := Ideal) x1 := by
  show StableHlo.after hostOps0 (W0 m ρ c) (Proc.devRef .tc main_v6) = _
  after_results_simp
  rfl

/-- The edges' weights: the inverse square roots of the two end nodes' degrees, multiplied. -/
theorem nrm_1 : W1 m ρ c (Proc.devRef .tc main_v26) = val_main_v26 (F := Ideal) x1 := by
  show StableHlo.after hostOps0 (W0 m ρ c) (Proc.devRef .tc main_v26) = _
  after_results_simp
  rfl

/-- After the first region: the features times the first weight matrix. -/
theorem z1_2 : W2 m ρ c (Proc.devRef .tc main_v27) = val_main_v27 (F := Ideal) x0 x2 := by
  refine (W2_arr m ρ c 2).trans ((Region0.arr (V1 m ρ) c).trans ?_)
  show lin (W1 m ρ c (Proc.devRef .tc main_arg0)) (W1 m ρ c (Proc.devRef .tc main_arg2)) = _
  rw [Keep.arg0_1, Keep.arg2_1]
  exact (GcnOps.dotGeneral_eq_lin (φ₁ := .f32) (φ₂ := .f32) Cert.ReferenceIdeal.dot_S50000x23_S23x128_S50000x128_1_0_0_1_n_n none .single
    (Dot2.rank_contr _ rfl) (Dot2.size_contr _ rfl _) (Dot2.lhs0 _ rfl rfl) (Dot2.lhs1 _ rfl _) (Dot2.rhs0 _ rfl _) (Dot2.rhs1 _ rfl rfl rfl rfl) x0 x2).symm

end Cert.KernelIdeal.ChainA

end
-- ==== Proof.Region1.lean ====
/-
  Region 1: ten grid points, point t adding the one-row bias array to rows 5000·t … 5000·t + 4999 of a
  50000 × 128 array and taking the hyperbolic tangent of every entry.  The layer is row-wise, so the band a point
  writes is the same band of the layer applied to the whole array, and the ten bands tile the 50000 rows.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store: the loaded block plus the loaded bias row broadcast over the rows, then the tangent. -/
theorem pay (x0 : FVec Ideal S5000x128 .f32) (x1 : FVec Ideal S1x128 .f32) : k1_pay1 (F := Ideal) x0 x1 = tnh x0 x1 :=
  tnh_body x0 x1 shapeCasts_S5000x128_S5000x128 shapeCasts_S1x128_S1x128 broadcasts_S1x128_S5000x128

/-- The printed index maps over the ten points: the row windows sit at block t, the bias window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A band of the layer is the layer of the band: stated over plain arrays and index maps. -/
theorem band (X : S50000x128.Idx → EReal) (B : S1x128.Idx → EReal) (x0 : S5000x128.Idx → EReal) (x1 : S1x128.Idx → EReal)
    (e0 : S5000x128.Idx → S50000x128.Idx) (e2 : S5000x128.Idx → S50000x128.Idx) (o : ℕ)
    (hx0 : x0 = fun y => X (e0 y)) (hx1 : x1 = B)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    tnh x0 x1 j = tnh X B (e2 j) := by
  subst hx0 hx1
  exact (rowMap_band (tanhRow x1) X o e0 e2 h10 h11 h20 h21 j).symm

/-- What point t writes back is its band of the layer applied to the whole array. -/
theorem flushed_eq (c : Dev nD) (t : Fin cfg1.N) :
    (dat1 V c).flushed 2 t = ((cfg1.win 2).blk t).view.read (Elt Ideal) (tnh (V c main_v40) (V c main_v41)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  rw [pay]
  obtain ⟨e0, e1, e2, e3, e4, e5⟩ := idx_facts t
  funext j
  refine band (V c main_v40) (V c main_v41) (iblk1 V c 0 t) (iblk1 V c 1 t)
    ((cfg1.win 0).blk t).view.emb ((cfg1.win 2).blk t).view.emb (5000 * t.val) rfl ?_ ?_ ?_ ?_ ?_ j
  · funext y
    show V c main_v41 (((cfg1.win 1).blk t).view.emb y) = V c main_v41 y
    refine congrArg (V c main_v41) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · intro y; show win1_0.index t (0 : Fin 2) * 5000 + 1 * (y 0).val = 5000 * t.val + (y 0).val; omega
  · intro y; show win1_0.index t (1 : Fin 2) * 128 + 1 * (y 1).val = (y 1).val; omega
  · intro y; show win1_2.index t (0 : Fin 2) * 5000 + 1 * (y 0).val = 5000 * t.val + (y 0).val; omega
  · intro y; show win1_2.index t (1 : Fin 2) * 128 + 1 * (y 1).val = (y 1).val; omega

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- THE ARRAY after the region: bias and tangent on every row of the array the region found. -/
theorem arr (c : Dev nD) : (dat1 V c).arrAt 2 cfg1.N = tnh (V c main_v40) (V c main_v41) := by
  refine (dat1 V c).arrAt_eq_of_cover 2 (tnh (V c main_v40) (V c main_v41)) (fun t _ => flushed_eq V c t) fun i => ?_
  have hN : grid1.N = 10 := N_1
  have hi0 : (i 0).val < 50000 := (i 0).isLt
  have hi1 : (i 1).val < 128 := (i 1).isLt
  let t : Fin cfg1.N := ⟨(i 0).val / 5000, by show (i 0).val / 5000 < grid1.N; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end Cert.KernelIdeal.Region1

end
-- ==== Proof.Region2.lean ====
/-
  Region 2: ten grid points, point t multiplying rows 5000·t … 5000·t + 4999 of a 50000 × 128 array by the whole
  128 × 128 matrix.  Every entry of a product depends on one row of the left factor only, so the band of rows a
  point writes is the same band of the whole product, and the ten bands tile the 50000 rows: after the region the
  output array is the whole product, as one row-wise layer of the array the region found.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store is the loaded block times the loaded matrix (the cast to its own shape and the two roundings on
    the way into the matrix unit are the identity on extended reals, and the accumulator starts at zero). -/
theorem pay (x0 : FVec Ideal S5000x128 .f32) (x1 : FVec Ideal S128x128 .f32) : k2_pay1 (F := Ideal) x0 x1 = lin x0 x1 :=
  (GcnOps.matmul_zero_eq_lin dot_S5000x128_S128x128_S5000x128_1_0_0_1_n_n none
    (Dot2.rank_contr _ rfl) (Dot2.size_contr _ rfl _) (Dot2.lhs0 _ rfl rfl) (Dot2.lhs1 _ rfl _) (Dot2.rhs0 _ rfl _) (Dot2.rhs1 _ rfl rfl rfl rfl)
    (truncf .bf16 (shapeCast S5000x128 x0 shapeCasts_S5000x128_S5000x128) bitsLt_bf16_f32) (truncf .bf16 x1 bitsLt_bf16_f32)).trans
    (by rw [shapeCast_self x0]; rfl)

/-- The printed index maps over the ten points: the row windows sit at block t, the matrix window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A band of the product is the product of the band: stated over plain arrays and index maps. -/
theorem band (X : S50000x128.Idx → EReal) (M : S128x128.Idx → EReal) (x0 : S5000x128.Idx → EReal) (x1 : S128x128.Idx → EReal)
    (e0 : S5000x128.Idx → S50000x128.Idx) (e2 : S5000x128.Idx → S50000x128.Idx) (o : ℕ)
    (hx0 : x0 = fun y => X (e0 y)) (hx1 : x1 = M)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    lin x0 x1 j = lin X M (e2 j) := by
  subst hx0 hx1
  exact (rowMap_band (linRow x1) X o e0 e2 h10 h11 h20 h21 j).symm

/-- What point t writes back is its band of the whole product. -/
theorem flushed_eq (c : Dev nD) (t : Fin cfg2.N) :
    (dat2 V c).flushed 2 t = ((cfg2.win 2).blk t).view.read (Elt Ideal) (lin (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay]
  obtain ⟨e0, e1, e2, e3, e4, e5⟩ := idx_facts t
  funext j
  refine band (V c main_v42) (V c main_arg4) (iblk2 V c 0 t) (iblk2 V c 1 t)
    ((cfg2.win 0).blk t).view.emb ((cfg2.win 2).blk t).view.emb (5000 * t.val) rfl ?_ ?_ ?_ ?_ ?_ j
  · funext y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · intro y; show win2_0.index t (0 : Fin 2) * 5000 + 1 * (y 0).val = 5000 * t.val + (y 0).val; omega
  · intro y; show win2_0.index t (1 : Fin 2) * 128 + 1 * (y 1).val = (y 1).val; omega
  · intro y; show win2_2.index t (0 : Fin 2) * 5000 + 1 * (y 0).val = 5000 * t.val + (y 0).val; omega
  · intro y; show win2_2.index t (1 : Fin 2) * 128 + 1 * (y 1).val = (y 1).val; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- THE ARRAY after the region: the whole product of the two arrays the region found. -/
theorem arr (c : Dev nD) : (dat2 V c).arrAt 2 cfg2.N = lin (V c main_v42) (V c main_arg4) := by
  refine (dat2 V c).arrAt_eq_of_cover 2 (lin (V c main_v42) (V c main_arg4)) (fun t _ => flushed_eq V c t) fun i => ?_
  have hN : grid2.N = 10 := N_2
  have hi0 : (i 0).val < 50000 := (i 0).isLt
  have hi1 : (i 1).val < 128 := (i 1).isLt
  let t : Fin cfg2.N := ⟨(i 0).val / 5000, by show (i 0).val / 5000 < grid2.N; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

end Cert.KernelIdeal.Region2

end
-- ==== Proof.ChainB.lean ====
/-
  Layer 1 of the network, followed from boundary to boundary.

  The host stretch gathers, for every edge, the source node's row of the product left by the region before it,
  scales the row by the edge's weight and adds it into the destination node's row; it also reshapes the layer's bias
  vector to one row.  The next region adds that row to every row of the aggregate and takes the hyperbolic tangent.
  At every boundary the kernel's buffer holds exactly the reference's stage: the host operations are the same in both
  programs and act on equal arrays, and the region's bias-and-tangent layer is the reference's broadcast, sum and
  tangent entry by entry.  The region after it multiplies by the second weight matrix.
-/
import proofs.«169234_j1898375545326_1_alg».proof.Proof.Gen.KernelIdeal.Frame
import proofs.«169234_j1898375545326_1_alg».proof.Proof.Gen.ReferenceIdeal.Read
import proofs.«169234_j1898375545326_1_alg».proof.Proof.ChainKeep
import proofs.«169234_j1898375545326_1_alg».proof.Proof.LibTanhLayers
import proofs.«169234_j1898375545326_1_alg».proof.Proof.LibDot2
import proofs.«169234_j1898375545326_1_alg».proof.Proof.ChainA
import proofs.«169234_j1898375545326_1_alg».proof.Proof.Region1
import proofs.«169234_j1898375545326_1_alg».proof.Proof.Region2

set_option maxRecDepth 16384

noncomputable section

namespace Cert.KernelIdeal.ChainB

open Cert.KernelIdeal Cert.KernelIdeal.Gen Idealize.ShloMosaic Idealize.ShloMosaic.TcCoe Idealize.SL.Sem
open Idealize.ShloMosaic.StableHlo (after_cons after_nil)
open Cert.ReferenceIdeal.Read GcnSpec TanhLayers

variable (m : (ℓ : Loc nD τ sig) → Buf (Elt Ideal) ℓ) (ρ : Dev nD → PrngReg) (c : Dev nD)

-- the notations below abbreviate the argument arrays at launch; they mention the variables m and c
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

/-- The three edge buffers at the boundary where this layer's host stretch reads them. -/
theorem src_2 : W2 m ρ c (Proc.devRef .tc main_v3) = val_main_v3 (F := Ideal) x1 :=
  (Keep.v3_2 m ρ c).trans (ChainA.src_1 m ρ c)
theorem dst_2 : W2 m ρ c (Proc.devRef .tc main_v6) = val_main_v6 (F := Ideal) x1 :=
  (Keep.v6_2 m ρ c).trans (ChainA.dst_1 m ρ c)
theorem nrm_2 : W2 m ρ c (Proc.devRef .tc main_v26) = val_main_v26 (F := Ideal) x1 :=
  (Keep.v26_2 m ρ c).trans (ChainA.nrm_1 m ρ c)

/-- The aggregation: every edge's source row of the product, scaled by the edge's weight, added into the edge's
    destination row.  The same host operations in both programs, applied to equal arrays. -/
theorem agg : W3 m ρ c (Proc.devRef .tc main_v40) = val_main_v40 (F := Ideal) x0 x1 x2 := by
  show StableHlo.after hostOps1 (W2 m ρ c) (Proc.devRef .tc main_v40) = _
  after_results_simp
  rw [ChainA.z1_2 m ρ c, src_2 m ρ c, dst_2 m ρ c, nrm_2 m ρ c]
  rfl

/-- The bias vector as a one-row array. -/
theorem bias : W3 m ρ c (Proc.devRef .tc main_v41) = shapeCast S1x128 x3 shapeCasts_S128_S1x128 := by
  show StableHlo.after hostOps1 (W2 m ρ c) (Proc.devRef .tc main_v41) = _
  after_results_simp
  rw [Keep.arg3_2 m ρ c]
  rfl

/-- After the bias-and-tangent region: the reference's activation of this layer. -/
theorem act : W4 m ρ c (Proc.devRef .tc main_v42) = val_main_v44 (F := Ideal) x0 x1 x2 x3 := by
  refine (W4_arr m ρ c 2).trans ((Region1.arr (V3 m ρ) c).trans ?_)
  show tnh (W3 m ρ c (Proc.devRef .tc main_v40)) (W3 m ρ c (Proc.devRef .tc main_v41)) = _
  rw [agg m ρ c, bias m ρ c]
  exact (tnh_host (val_main_v40 (F := Ideal) x0 x1 x2) x3 Cert.ReferenceIdeal.Gen.bcast_S128_S1x128_1 Cert.ReferenceIdeal.Gen.bcast_S1x128_S50000x128_0_1
    shapeCasts_S128_S1x128).symm

/-- After the next product region: the activation times the next weight matrix, the reference's dot_general. -/
theorem prod : W5 m ρ c (Proc.devRef .tc main_v43) = val_main_v45 (F := Ideal) x0 x1 x2 x3 x4 := by
  refine (W5_arr m ρ c 2).trans ((Region2.arr (V4 m ρ) c).trans ?_)
  show lin (W4 m ρ c (Proc.devRef .tc main_v42)) (W4 m ρ c (Proc.devRef .tc main_arg4)) = _
  rw [act m ρ c, Keep.arg4_4 m ρ c]
  exact (GcnOps.dotGeneral_eq_lin (φ₁ := .f32) (φ₂ := .f32) Cert.ReferenceIdeal.dot_S50000x128_S128x128_S50000x128_1_0_0_1_n_n none .single
    (Dot2.rank_contr _ rfl) (Dot2.size_contr _ rfl _) (Dot2.lhs0 _ rfl rfl) (Dot2.lhs1 _ rfl _) (Dot2.rhs0 _ rfl _) (Dot2.rhs1 _ rfl rfl rfl rfl) (val_main_v44 (F := Ideal) x0 x1 x2 x3) x4).symm

end Cert.KernelIdeal.ChainB

end
-- ==== Proof.Region3.lean ====
/-
  Region 3: ten grid points, point t adding the one-row bias array to rows 5000·t … 5000·t + 4999 of a
  50000 × 128 array and taking the hyperbolic tangent of every entry.  The layer is row-wise, so the band a point
  writes is the same band of the layer applied to the whole array, and the ten bands tile the 50000 rows.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store: the loaded block plus the loaded bias row broadcast over the rows, then the tangent. -/
theorem pay (x0 : FVec Ideal S5000x128 .f32) (x1 : FVec Ideal S1x128 .f32) : k3_pay1 (F := Ideal) x0 x1 = tnh x0 x1 :=
  tnh_body x0 x1 shapeCasts_S5000x128_S5000x128 shapeCasts_S1x128_S1x128 broadcasts_S1x128_S5000x128

/-- The printed index maps over the ten points: the row windows sit at block t, the bias window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A band of the layer is the layer of the band: stated over plain arrays and index maps. -/
theorem band (X : S50000x128.Idx → EReal) (B : S1x128.Idx → EReal) (x0 : S5000x128.Idx → EReal) (x1 : S1x128.Idx → EReal)
    (e0 : S5000x128.Idx → S50000x128.Idx) (e2 : S5000x128.Idx → S50000x128.Idx) (o : ℕ)
    (hx0 : x0 = fun y => X (e0 y)) (hx1 : x1 = B)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    tnh x0 x1 j = tnh X B (e2 j) := by
  subst hx0 hx1
  exact (rowMap_band (tanhRow x1) X o e0 e2 h10 h11 h20 h21 j).symm

/-- What point t writes back is its band of the layer applied to the whole array. -/
theorem flushed_eq (c : Dev nD) (t : Fin cfg3.N) :
    (dat3 V c).flushed 2 t = ((cfg3.win 2).blk t).view.read (Elt Ideal) (tnh (V c main_v56) (V c main_v57)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  rw [pay]
  obtain ⟨e0, e1, e2, e3, e4, e5⟩ := idx_facts t
  funext j
  refine band (V c main_v56) (V c main_v57) (iblk3 V c 0 t) (iblk3 V c 1 t)
    ((cfg3.win 0).blk t).view.emb ((cfg3.win 2).blk t).view.emb (5000 * t.val) rfl ?_ ?_ ?_ ?_ ?_ j
  · funext y
    show V c main_v57 (((cfg3.win 1).blk t).view.emb y) = V c main_v57 y
    refine congrArg (V c main_v57) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · intro y; show win3_0.index t (0 : Fin 2) * 5000 + 1 * (y 0).val = 5000 * t.val + (y 0).val; omega
  · intro y; show win3_0.index t (1 : Fin 2) * 128 + 1 * (y 1).val = (y 1).val; omega
  · intro y; show win3_2.index t (0 : Fin 2) * 5000 + 1 * (y 0).val = 5000 * t.val + (y 0).val; omega
  · intro y; show win3_2.index t (1 : Fin 2) * 128 + 1 * (y 1).val = (y 1).val; omega

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- THE ARRAY after the region: bias and tangent on every row of the array the region found. -/
theorem arr (c : Dev nD) : (dat3 V c).arrAt 2 cfg3.N = tnh (V c main_v56) (V c main_v57) := by
  refine (dat3 V c).arrAt_eq_of_cover 2 (tnh (V c main_v56) (V c main_v57)) (fun t _ => flushed_eq V c t) fun i => ?_
  have hN : grid3.N = 10 := N_3
  have hi0 : (i 0).val < 50000 := (i 0).isLt
  have hi1 : (i 1).val < 128 := (i 1).isLt
  let t : Fin cfg3.N := ⟨(i 0).val / 5000, by show (i 0).val / 5000 < grid3.N; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

end Cert.KernelIdeal.Region3

end
-- ==== Proof.Region4.lean ====
/-
  Region 4: ten grid points, point t multiplying rows 5000·t … 5000·t + 4999 of a 50000 × 128 array by the whole
  128 × 128 matrix.  Every entry of a product depends on one row of the left factor only, so the band of rows a
  point writes is the same band of the whole product, and the ten bands tile the 50000 rows: after the region the
  output array is the whole product, as one row-wise layer of the array the region found.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store is the loaded block times the loaded matrix (the cast to its own shape and the two roundings on
    the way into the matrix unit are the identity on extended reals, and the accumulator starts at zero). -/
theorem pay (x0 : FVec Ideal S5000x128 .f32) (x1 : FVec Ideal S128x128 .f32) : k4_pay1 (F := Ideal) x0 x1 = lin x0 x1 :=
  (GcnOps.matmul_zero_eq_lin dot_S5000x128_S128x128_S5000x128_1_0_0_1_n_n none
    (Dot2.rank_contr _ rfl) (Dot2.size_contr _ rfl _) (Dot2.lhs0 _ rfl rfl) (Dot2.lhs1 _ rfl _) (Dot2.rhs0 _ rfl _) (Dot2.rhs1 _ rfl rfl rfl rfl)
    (truncf .bf16 (shapeCast S5000x128 x0 shapeCasts_S5000x128_S5000x128) bitsLt_bf16_f32) (truncf .bf16 x1 bitsLt_bf16_f32)).trans
    (by rw [shapeCast_self x0]; rfl)

/-- The printed index maps over the ten points: the row windows sit at block t, the matrix window at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A band of the product is the product of the band: stated over plain arrays and index maps. -/
theorem band (X : S50000x128.Idx → EReal) (M : S128x128.Idx → EReal) (x0 : S5000x128.Idx → EReal) (x1 : S128x128.Idx → EReal)
    (e0 : S5000x128.Idx → S50000x128.Idx) (e2 : S5000x128.Idx → S50000x128.Idx) (o : ℕ)
    (hx0 : x0 = fun y => X (e0 y)) (hx1 : x1 = M)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    lin x0 x1 j = lin X M (e2 j) := by
  subst hx0 hx1
  exact (rowMap_band (linRow x1) X o e0 e2 h10 h11 h20 h21 j).symm

/-- What point t writes back is its band of the whole product. -/
theorem flushed_eq (c : Dev nD) (t : Fin cfg4.N) :
    (dat4 V c).flushed 2 t = ((cfg4.win 2).blk t).view.read (Elt Ideal) (lin (V c main_v58) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  rw [pay]
  obtain ⟨e0, e1, e2, e3, e4, e5⟩ := idx_facts t
  funext j
  refine band (V c main_v58) (V c main_arg6) (iblk4 V c 0 t) (iblk4 V c 1 t)
    ((cfg4.win 0).blk t).view.emb ((cfg4.win 2).blk t).view.emb (5000 * t.val) rfl ?_ ?_ ?_ ?_ ?_ j
  · funext y
    show V c main_arg6 (((cfg4.win 1).blk t).view.emb y) = V c main_arg6 y
    refine congrArg (V c main_arg6) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · intro y; show win4_0.index t (0 : Fin 2) * 5000 + 1 * (y 0).val = 5000 * t.val + (y 0).val; omega
  · intro y; show win4_0.index t (1 : Fin 2) * 128 + 1 * (y 1).val = (y 1).val; omega
  · intro y; show win4_2.index t (0 : Fin 2) * 5000 + 1 * (y 0).val = 5000 * t.val + (y 0).val; omega
  · intro y; show win4_2.index t (1 : Fin 2) * 128 + 1 * (y 1).val = (y 1).val; omega

/-- An index of the output array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v59).slice (win4_2.rect t)).set ↔ _
  rw [View.set_slice_whole, Rect.mem_set_unit]
  exact Iff.rfl

/-- THE ARRAY after the region: the whole product of the two arrays the region found. -/
theorem arr (c : Dev nD) : (dat4 V c).arrAt 2 cfg4.N = lin (V c main_v58) (V c main_arg6) := by
  refine (dat4 V c).arrAt_eq_of_cover 2 (lin (V c main_v58) (V c main_arg6)) (fun t _ => flushed_eq V c t) fun i => ?_
  have hN : grid4.N = 10 := N_4
  have hi0 : (i 0).val < 50000 := (i 0).isLt
  have hi1 : (i 1).val < 128 := (i 1).isLt
  let t : Fin cfg4.N := ⟨(i 0).val / 5000, by show (i 0).val / 5000 < grid4.N; omega⟩
  obtain ⟨e0, e1, e2, e3, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

end Cert.KernelIdeal.Region4

end
-- ==== Proof.ChainC.lean ====
/-
  Layer 2 of the network, followed from boundary to boundary.

  The host stretch gathers, for every edge, the source node's row of the product left by the region before it,
  scales the row by the edge's weight and adds it into the destination node's row; it also reshapes the layer's bias
  vector to one row.  The next region adds that row to every row of the aggregate and takes the hyperbolic tangent.
  At every boundary the kernel's buffer holds exactly the reference's stage: the host operations are the same in both
  programs and act on equal arrays, and the region's bias-and-tangent layer is the reference's broadcast, sum and
  tangent entry by entry.  The region after it multiplies by the third weight matrix.
-/
import proofs.«169234_j1898375545326_1_alg».proof.Proof.Gen.KernelIdeal.Frame
import proofs.«169234_j1898375545326_1_alg».proof.Proof.Gen.ReferenceIdeal.Read
import proofs.«169234_j1898375545326_1_alg».proof.Proof.ChainKeep
import proofs.«169234_j1898375545326_1_alg».proof.Proof.LibTanhLayers
import proofs.«169234_j1898375545326_1_alg».proof.Proof.LibDot2
import proofs.«169234_j1898375545326_1_alg».proof.Proof.ChainA
import proofs.«169234_j1898375545326_1_alg».proof.Proof.ChainB
import proofs.«169234_j1898375545326_1_alg».proof.Proof.Region3
import proofs.«169234_j1898375545326_1_alg».proof.Proof.Region4

set_option maxRecDepth 16384

noncomputable section

namespace Cert.KernelIdeal.ChainC

open Cert.KernelIdeal Cert.KernelIdeal.Gen Idealize.ShloMosaic Idealize.ShloMosaic.TcCoe Idealize.SL.Sem
open Idealize.ShloMosaic.StableHlo (after_cons after_nil)
open Cert.ReferenceIdeal.Read GcnSpec TanhLayers

variable (m : (ℓ : Loc nD τ sig) → Buf (Elt Ideal) ℓ) (ρ : Dev nD → PrngReg) (c : Dev nD)

-- the notations below abbreviate the argument arrays at launch; they mention the variables m and c
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

/-- The three edge buffers at the boundary where this layer's host stretch reads them. -/
theorem src_5 : W5 m ρ c (Proc.devRef .tc main_v3) = val_main_v3 (F := Ideal) x1 :=
  (Keep.v3_5 m ρ c).trans (ChainA.src_1 m ρ c)
theorem dst_5 : W5 m ρ c (Proc.devRef .tc main_v6) = val_main_v6 (F := Ideal) x1 :=
  (Keep.v6_5 m ρ c).trans (ChainA.dst_1 m ρ c)
theorem nrm_5 : W5 m ρ c (Proc.devRef .tc main_v26) = val_main_v26 (F := Ideal) x1 :=
  (Keep.v26_5 m ρ c).trans (ChainA.nrm_1 m ρ c)

/-- The aggregation: every edge's source row of the product, scaled by the edge's weight, added into the edge's
    destination row.  The same host operations in both programs, applied to equal arrays. -/
theorem agg : W6 m ρ c (Proc.devRef .tc main_v56) = val_main_v58 (F := Ideal) x0 x1 x2 x3 x4 := by
  show StableHlo.after hostOps3 (W5 m ρ c) (Proc.devRef .tc main_v56) = _
  after_results_simp
  rw [ChainB.prod m ρ c, src_5 m ρ c, dst_5 m ρ c, nrm_5 m ρ c]
  rfl

/-- The bias vector as a one-row array. -/
theorem bias : W6 m ρ c (Proc.devRef .tc main_v57) = shapeCast S1x128 x5 shapeCasts_S128_S1x128 := by
  show StableHlo.after hostOps3 (W5 m ρ c) (Proc.devRef .tc main_v57) = _
  after_results_simp
  rw [Keep.arg5_5 m ρ c]
  rfl

/-- After the bias-and-tangent region: the reference's activation of this layer. -/
theorem act : W7 m ρ c (Proc.devRef .tc main_v58) = val_main_v62 (F := Ideal) x0 x1 x2 x3 x4 x5 := by
  refine (W7_arr m ρ c 2).trans ((Region3.arr (V6 m ρ) c).trans ?_)
  show tnh (W6 m ρ c (Proc.devRef .tc main_v56)) (W6 m ρ c (Proc.devRef .tc main_v57)) = _
  rw [agg m ρ c, bias m ρ c]
  exact (tnh_host (val_main_v58 (F := Ideal) x0 x1 x2 x3 x4) x5 Cert.ReferenceIdeal.Gen.bcast_S128_S1x128_1 Cert.ReferenceIdeal.Gen.bcast_S1x128_S50000x128_0_1
    shapeCasts_S128_S1x128).symm

/-- After the next product region: the activation times the next weight matrix, the reference's dot_general. -/
theorem prod : W8 m ρ c (Proc.devRef .tc main_v59) = val_main_v63 (F := Ideal) x0 x1 x2 x3 x4 x5 x6 := by
  refine (W8_arr m ρ c 2).trans ((Region4.arr (V7 m ρ) c).trans ?_)
  show lin (W7 m ρ c (Proc.devRef .tc main_v58)) (W7 m ρ c (Proc.devRef .tc main_arg6)) = _
  rw [act m ρ c, Keep.arg6_7 m ρ c]
  exact (GcnOps.dotGeneral_eq_lin (φ₁ := .f32) (φ₂ := .f32) Cert.ReferenceIdeal.dot_S50000x128_S128x128_S50000x128_1_0_0_1_n_n none .single
    (Dot2.rank_contr _ rfl) (Dot2.size_contr _ rfl _) (Dot2.lhs0 _ rfl rfl) (Dot2.lhs1 _ rfl _) (Dot2.rhs0 _ rfl _) (Dot2.rhs1 _ rfl rfl rfl rfl) (val_main_v62 (F := Ideal) x0 x1 x2 x3 x4 x5) x6).symm

end Cert.KernelIdeal.ChainC

end
-- ==== Proof.Region5.lean ====
/-
  Region 5: ten grid points, point t adding the one-row bias array to rows 5000·t … 5000·t + 4999 of a
  50000 × 128 array and taking the hyperbolic tangent of every entry.  The layer is row-wise, so the band a point
  writes is the same band of the layer applied to the whole array, and the ten bands tile the 50000 rows.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store: the loaded block plus the loaded bias row broadcast over the rows, then the tangent. -/
theorem pay (x0 : FVec Ideal S5000x128 .f32) (x1 : FVec Ideal S1x128 .f32) : k5_pay1 (F := Ideal) x0 x1 = tnh x0 x1 :=
  tnh_body x0 x1 shapeCasts_S5000x128_S5000x128 shapeCasts_S1x128_S1x128 broadcasts_S1x128_S5000x128

/-- The printed index maps over the ten points: the row windows sit at block t, the bias window at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- A band of the layer is the layer of the band: stated over plain arrays and index maps. -/
theorem band (X : S50000x128.Idx → EReal) (B : S1x128.Idx → EReal) (x0 : S5000x128.Idx → EReal) (x1 : S1x128.Idx → EReal)
    (e0 : S5000x128.Idx → S50000x128.Idx) (e2 : S5000x128.Idx → S50000x128.Idx) (o : ℕ)
    (hx0 : x0 = fun y => X (e0 y)) (hx1 : x1 = B)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x128.Idx) :
    tnh x0 x1 j = tnh X B (e2 j) := by
  subst hx0 hx1
  exact (rowMap_band (tanhRow x1) X o e0 e2 h10 h11 h20 h21 j).symm

/-- What point t writes back is its band of the layer applied to the whole array. -/
theorem flushed_eq (c : Dev nD) (t : Fin cfg5.N) :
    (dat5 V c).flushed 2 t = ((cfg5.win 2).blk t).view.read (Elt Ideal) (tnh (V c main_v72) (V c main_v73)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  rw [pay]
  obtain ⟨e0, e1, e2, e3, e4, e5⟩ := idx_facts t
  funext j
  refine band (V c main_v72) (V c main_v73) (iblk5 V c 0 t) (iblk5 V c 1 t)
    ((cfg5.win 0).blk t).view.emb ((cfg5.win 2).blk t).view.emb (5000 * t.val) rfl ?_ ?_ ?_ ?_ ?_ j
  · funext y
    show V c main_v73 (((cfg5.win 1).blk t).view.emb y) = V c main_v73 y
    refine congrArg (V c main_v73) (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · intro y; show win5_0.index t (0 : Fin 2) * 5000 + 1 * (y 0).val = 5000 * t.val + (y 0).val; omega
  · intro y; show win5_0.index t (1 : Fin 2) * 128 + 1 * (y 1).val = (y 1).val; omega
  · intro y; show win5_2.index t (0 : Fin 2) * 5000 + 1 * (y 0).val = 5000 * t.val + (y 0).val; omega
  · intro y; show win5_2.index t (1 : Fin 2) * 128 + 1 * (y 1).val = (y 1).val; omega

/-- An index of the output array is in point t's block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- THE ARRAY after the region: bias and tangent on every row of the array the region found. -/
theorem arr (c : Dev nD) : (dat5 V c).arrAt 2 cfg5.N = tnh (V c main_v72) (V c main_v73) := by
  refine (dat5 V c).arrAt_eq_of_cover 2 (tnh (V c main_v72) (V c main_v73)) (fun t _ => flushed_eq V c t) fun i => ?_
  have hN : grid5.N = 10 := N_5
  have hi0 : (i 0).val < 50000 := (i 0).isLt
  have hi1 : (i 1).val < 128 := (i 1).isLt
  let t : Fin cfg5.N := ⟨(i 0).val / 5000, by show (i 0).val / 5000 < grid5.N; omega⟩
  obtain ⟨e0, e1, e2, e3, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

end Cert.KernelIdeal.Region5

end
-- ==== Proof.Region6.lean ====
/-
  Region 6: ten grid points, point t multiplying rows 5000·t … 5000·t + 4999 of a 50000 × 128 array by the whole
  128 × 64 matrix and adding the one-row bias array.  The layer is row-wise, so the band a point writes is the same
  band of the layer applied to the whole array, and the ten bands tile the 50000 rows.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store: the loaded block times the loaded matrix (the cast to its own shape and the two roundings
    on the way into the matrix unit are the identity on extended reals; the accumulator starts at zero), plus the
    loaded bias row broadcast over the rows. -/
theorem pay (x0 : FVec Ideal S5000x128 .f32) (x1 : FVec Ideal S128x64 .f32) (x2 : FVec Ideal S1x64 .f32) :
    k6_pay1 (F := Ideal) x0 x1 x2 = aff x0 x1 x2 :=
  (aff_body dot_S5000x128_S128x64_S5000x64_1_0_0_1_n_n none
    (Dot2.rank_contr _ rfl) (Dot2.size_contr _ rfl _) (Dot2.lhs0 _ rfl rfl) (Dot2.lhs1 _ rfl _) (Dot2.rhs0 _ rfl _)
    (Dot2.rhs1 _ rfl rfl rfl rfl) (truncf .bf16 (shapeCast S5000x128 x0 shapeCasts_S5000x128_S5000x128) bitsLt_bf16_f32)
    (truncf .bf16 x1 bitsLt_bf16_f32) x2 shapeCasts_S1x64_S1x64 broadcasts_S1x64_S5000x64).trans (by rw [shapeCast_self x0]; rfl)

/-- The printed index maps over the ten points: the row windows sit at block t, the matrix and bias windows at block 0. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A band of the layer is the layer of the band: stated over plain arrays and index maps. -/
theorem band (X : S50000x128.Idx → EReal) (M : S128x64.Idx → EReal) (B : S1x64.Idx → EReal)
    (x0 : S5000x128.Idx → EReal) (x1 : S128x64.Idx → EReal) (x2 : S1x64.Idx → EReal)
    (e0 : S5000x128.Idx → S50000x128.Idx) (e2 : S5000x64.Idx → S50000x64.Idx) (o : ℕ)
    (hx0 : x0 = fun y => X (e0 y)) (hx1 : x1 = M) (hx2 : x2 = B)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x64.Idx) :
    aff x0 x1 x2 j = aff X M B (e2 j) := by
  subst hx0 hx1 hx2
  exact (rowMap_band (affRow x1 x2) X o e0 e2 h10 h11 h20 h21 j).symm

/-- What point t writes back is its band of the layer applied to the whole array. -/
theorem flushed_eq (c : Dev nD) (t : Fin cfg6.N) :
    (dat6 V c).flushed 3 t = ((cfg6.win 3).blk t).view.read (Elt Ideal) (aff (V c main_v74) (V c main_arg8) (V c main_v75)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x64) hz, View.ld_unit_zero (S := S1x64) hz]
  rw [pay]
  obtain ⟨e0, e1, e2, e3, e4, e5, e6, e7⟩ := idx_facts t
  funext j
  refine band (V c main_v74) (V c main_arg8) (V c main_v75) (iblk6 V c 0 t) (iblk6 V c 1 t) (iblk6 V c 2 t)
    ((cfg6.win 0).blk t).view.emb ((cfg6.win 3).blk t).view.emb (5000 * t.val) rfl ?_ ?_ ?_ ?_ ?_ ?_ j
  · funext y
    show V c main_arg8 (((cfg6.win 1).blk t).view.emb y) = V c main_arg8 y
    refine congrArg (V c main_arg8) (funext fun a => Fin.ext ?_)
    match a with
    | ⟨0, _⟩ => show win6_1.index t (0 : Fin 2) * 128 + 1 * (y 0).val = (y 0).val; omega
    | ⟨1, _⟩ => show win6_1.index t (1 : Fin 2) * 64 + 1 * (y 1).val = (y 1).val; omega
  · funext y
    show V c main_v75 (((cfg6.win 2).blk t).view.emb y) = V c main_v75 y
    refine congrArg (V c main_v75) (funext fun a => Fin.ext ?_)
    match a with
    | ⟨0, _⟩ => show win6_2.index t (0 : Fin 2) * 1 + 1 * (y 0).val = (y 0).val; omega
    | ⟨1, _⟩ => show win6_2.index t (1 : Fin 2) * 64 + 1 * (y 1).val = (y 1).val; omega
  · intro y; show win6_0.index t (0 : Fin 2) * 5000 + 1 * (y 0).val = 5000 * t.val + (y 0).val; omega
  · intro y; show win6_0.index t (1 : Fin 2) * 128 + 1 * (y 1).val = (y 1).val; omega
  · intro y; show win6_3.index t (0 : Fin 2) * 5000 + 1 * (y 0).val = 5000 * t.val + (y 0).val; omega
  · intro y; show win6_3.index t (1 : Fin 2) * 64 + 1 * (y 1).val = (y 1).val; omega

/-- An index of the output array is in point t's block iff each coordinate is in the block's range on its axis. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v76).slice (win6_3.rect t)).set ↔ _
  rw [View.set_slice_whole, Rect.mem_set_unit]
  exact Iff.rfl

/-- THE ARRAY after the region: the matrix product plus the bias on every row of the array the region found. -/
theorem arr (c : Dev nD) : (dat6 V c).arrAt 3 cfg6.N = aff (V c main_v74) (V c main_arg8) (V c main_v75) := by
  refine (dat6 V c).arrAt_eq_of_cover 3 (aff (V c main_v74) (V c main_arg8) (V c main_v75)) (fun t _ => flushed_eq V c t) fun i => ?_
  have hN : grid6.N = 10 := N_6
  have hi0 : (i 0).val < 50000 := (i 0).isLt
  have hi1 : (i 1).val < 64 := (i 1).isLt
  let t : Fin cfg6.N := ⟨(i 0).val / 5000, by show (i 0).val / 5000 < grid6.N; omega⟩
  obtain ⟨e0, e1, e2, e3, e4, e5, e6, e7⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

end Cert.KernelIdeal.Region6

end
-- ==== Proof.Region7.lean ====
/-
  Region 7: ten grid points, point t multiplying rows 5000·t … 5000·t + 4999 of a 50000 × 64 array by the whole
  64 × 12 matrix and adding the one-row bias array.  The layer is row-wise, so the band a point writes is the same
  band of the layer applied to the whole array, and the ten bands tile the 50000 rows.
-/
import proofs.«169234_j1898375545326_1_alg».proof.Proof.Gen.KernelIdeal.Frame
import proofs.«169234_j1898375545326_1_alg».proof.Proof.LibTanhLayers
import proofs.«169234_j1898375545326_1_alg».proof.Proof.LibDot2
import Idealize.ShloMosaic.Lib.Pipeline.Value
import Idealize.ShloMosaic.Lib.ValueIdx

set_option maxRecDepth 16384

noncomputable section

namespace Cert.KernelIdeal.Region7

open Cert.KernelIdeal Cert.KernelIdeal.Gen Idealize.ShloMosaic Idealize.ShloMosaic.TcCoe Idealize.ShloMosaic.ValueIdx Idealize.SL.Sem
open Idealize.ShloMosaic.Pipeline (Dat)
open GcnSpec TanhLayers

variable (V : (c : Dev nD) → (b : Ref sig .tc) → Buf (Elt Ideal) ((c : Thread nD τ).loc b))

theorem hz : (![0, 0] : Fin 2 → Nat) = fun _ => 0 := funext fun a => by fin_cases a <;> rfl

/-- The body's one store: the loaded block times the loaded matrix (the cast to its own shape and the two roundings
    on the way into the matrix unit are the identity on extended reals; the accumulator starts at zero), plus the
    loaded bias row broadcast over the rows. -/
theorem pay (x0 : FVec Ideal S5000x64 .f32) (x1 : FVec Ideal S64x12 .f32) (x2 : FVec Ideal S1x12 .f32) :
    k7_pay1 (F := Ideal) x0 x1 x2 = aff x0 x1 x2 :=
  (aff_body dot_S5000x64_S64x12_S5000x12_1_0_0_1_n_n none
    (Dot2.rank_contr _ rfl) (Dot2.size_contr _ rfl _) (Dot2.lhs0 _ rfl rfl) (Dot2.lhs1 _ rfl _) (Dot2.rhs0 _ rfl _)
    (Dot2.rhs1 _ rfl rfl rfl rfl) (truncf .bf16 (shapeCast S5000x64 x0 shapeCasts_S5000x64_S5000x64) bitsLt_bf16_f32)
    (truncf .bf16 x1 bitsLt_bf16_f32) x2 shapeCasts_S1x12_S1x12 broadcasts_S1x12_S5000x12).trans (by rw [shapeCast_self x0]; rfl)

/-- The printed index maps over the ten points: the row windows sit at block t, the matrix and bias windows at block 0. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- A band of the layer is the layer of the band: stated over plain arrays and index maps. -/
theorem band (X : S50000x64.Idx → EReal) (M : S64x12.Idx → EReal) (B : S1x12.Idx → EReal)
    (x0 : S5000x64.Idx → EReal) (x1 : S64x12.Idx → EReal) (x2 : S1x12.Idx → EReal)
    (e0 : S5000x64.Idx → S50000x64.Idx) (e2 : S5000x12.Idx → S50000x12.Idx) (o : ℕ)
    (hx0 : x0 = fun y => X (e0 y)) (hx1 : x1 = M) (hx2 : x2 = B)
    (h10 : ∀ y, (e0 y 0).val = o + (y 0).val) (h11 : ∀ y, (e0 y 1).val = (y 1).val)
    (h20 : ∀ y, (e2 y 0).val = o + (y 0).val) (h21 : ∀ y, (e2 y 1).val = (y 1).val) (j : S5000x12.Idx) :
    aff x0 x1 x2 j = aff X M B (e2 j) := by
  subst hx0 hx1 hx2
  exact (rowMap_band (affRow x1 x2) X o e0 e2 h10 h11 h20 h21 j).symm

/-- What point t writes back is its band of the layer applied to the whole array. -/
theorem flushed_eq (c : Dev nD) (t : Fin cfg7.N) :
    (dat7 V c).flushed 3 t = ((cfg7.win 3).blk t).view.read (Elt Ideal) (aff (V c main_v76) (V c main_arg10) (V c main_v77)) := by
  show (cfg7.win 3).cut (grid7.coords t) ((dat7 V c).after 3 t) = _
  rw [after7_3]
  unfold out7_3
  rw [View.canon_unit_zero hz]
  simp only [View.ld_unit_zero (S := S5000x64) hz, View.ld_unit_zero (S := S64x12) hz, View.ld_unit_zero (S := S1x12) hz]
  rw [pay]
  obtain ⟨e0, e1, e2, e3, e4, e5, e6, e7⟩ := idx_facts t
  funext j
  refine band (V c main_v76) (V c main_arg10) (V c main_v77) (iblk7 V c 0 t) (iblk7 V c 1 t) (iblk7 V c 2 t)
    ((cfg7.win 0).blk t).view.emb ((cfg7.win 3).blk t).view.emb (5000 * t.val) rfl ?_ ?_ ?_ ?_ ?_ ?_ j
  · funext y
    show V c main_arg10 (((cfg7.win 1).blk t).view.emb y) = V c main_arg10 y
    refine congrArg (V c main_arg10) (funext fun a => Fin.ext ?_)
    match a with
    | ⟨0, _⟩ => show win7_1.index t (0 : Fin 2) * 64 + 1 * (y 0).val = (y 0).val; omega
    | ⟨1, _⟩ => show win7_1.index t (1 : Fin 2) * 12 + 1 * (y 1).val = (y 1).val; omega
  · funext y
    show V c main_v77 (((cfg7.win 2).blk t).view.emb y) = V c main_v77 y
    refine congrArg (V c main_v77) (funext fun a => Fin.ext ?_)
    match a with
    | ⟨0, _⟩ => show win7_2.index t (0 : Fin 2) * 1 + 1 * (y 0).val = (y 0).val; omega
    | ⟨1, _⟩ => show win7_2.index t (1 : Fin 2) * 12 + 1 * (y 1).val = (y 1).val; omega
  · intro y; show win7_0.index t (0 : Fin 2) * 5000 + 1 * (y 0).val = 5000 * t.val + (y 0).val; omega
  · intro y; show win7_0.index t (1 : Fin 2) * 64 + 1 * (y 1).val = (y 1).val; omega
  · intro y; show win7_3.index t (0 : Fin 2) * 5000 + 1 * (y 0).val = 5000 * t.val + (y 0).val; omega
  · intro y; show win7_3.index t (1 : Fin 2) * 12 + 1 * (y 1).val = (y 1).val; omega

/-- An index of the output array is in point t's block iff each coordinate is in the block's range on its axis. -/
theorem mem_blk (t : Fin cfg7.N) (i : S50000x12.Idx) :
    i ∈ ((cfg7.win 3).blk t).view.set ↔ ∀ a : Fin 2, win7_3.index t a * S5000x12.size a ≤ (i a).val ∧ (i a).val < win7_3.index t a * S5000x12.size a + S5000x12.size a := by
  show i ∈ ((View.whole main_v78).slice (win7_3.rect t)).set ↔ _
  rw [View.set_slice_whole, Rect.mem_set_unit]
  exact Iff.rfl

/-- THE ARRAY after the region: the matrix product plus the bias on every row of the array the region found. -/
theorem arr (c : Dev nD) : (dat7 V c).arrAt 3 cfg7.N = aff (V c main_v76) (V c main_arg10) (V c main_v77) := by
  refine (dat7 V c).arrAt_eq_of_cover 3 (aff (V c main_v76) (V c main_arg10) (V c main_v77)) (fun t _ => flushed_eq V c t) fun i => ?_
  have hN : grid7.N = 10 := N_7
  have hi0 : (i 0).val < 50000 := (i 0).isLt
  have hi1 : (i 1).val < 12 := (i 1).isLt
  let t : Fin cfg7.N := ⟨(i 0).val / 5000, by show (i 0).val / 5000 < grid7.N; omega⟩
  obtain ⟨e0, e1, e2, e3, e4, e5, e6, e7⟩ := idx_facts t
  have ht : t.val = (i 0).val / 5000 := rfl
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 12 ≤ (i 1).val ∧ (i 1).val < win7_3.index t (1 : Fin 2) * 12 + 12; omega

end Cert.KernelIdeal.Region7

end
-- ==== Proof.ChainD.lean ====
/-
  Layer 3 of the network, followed from boundary to boundary.

  The host stretch gathers, for every edge, the source node's row of the product left by the region before it,
  scales the row by the edge's weight and adds it into the destination node's row; it also reshapes the layer's bias
  vector to one row.  The next region adds that row to every row of the aggregate and takes the hyperbolic tangent.
  At every boundary the kernel's buffer holds exactly the reference's stage: the host operations are the same in both
  programs and act on equal arrays, and the region's bias-and-tangent layer is the reference's broadcast, sum and
  tangent entry by entry.
  Then the two linear heads: each reshapes its bias vector to one row and a region multiplies every row by the head's
  matrix and adds the row; the reference's dot_general plus its twice-broadcast bias is the same array entry by
  entry.  The last region's output is the program's result, so the result buffer at the last boundary holds the
  reference's last stage.
-/
import proofs.«169234_j1898375545326_1_alg».proof.Proof.Gen.KernelIdeal.Frame
import proofs.«169234_j1898375545326_1_alg».proof.Proof.Gen.ReferenceIdeal.Read
import proofs.«169234_j1898375545326_1_alg».proof.Proof.ChainKeep
import proofs.«169234_j1898375545326_1_alg».proof.Proof.LibTanhLayers
import proofs.«169234_j1898375545326_1_alg».proof.Proof.LibDot2
import proofs.«169234_j1898375545326_1_alg».proof.Proof.ChainA
import proofs.«169234_j1898375545326_1_alg».proof.Proof.ChainC
import proofs.«169234_j1898375545326_1_alg».proof.Proof.Region5
import proofs.«169234_j1898375545326_1_alg».proof.Proof.Region6
import proofs.«169234_j1898375545326_1_alg».proof.Proof.Region7

set_option maxRecDepth 16384

noncomputable section

namespace Cert.KernelIdeal.ChainD

open Cert.KernelIdeal Cert.KernelIdeal.Gen Idealize.ShloMosaic Idealize.ShloMosaic.TcCoe Idealize.SL.Sem
open Idealize.ShloMosaic.StableHlo (after_cons after_nil)
open Cert.ReferenceIdeal.Read GcnSpec TanhLayers

variable (m : (ℓ : Loc nD τ sig) → Buf (Elt Ideal) ℓ) (ρ : Dev nD → PrngReg) (c : Dev nD)

-- the notations below abbreviate the argument arrays at launch; they mention the variables m and c
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

/-- The three edge buffers at the boundary where this layer's host stretch reads them. -/
theorem src_8 : W8 m ρ c (Proc.devRef .tc main_v3) = val_main_v3 (F := Ideal) x1 :=
  (Keep.v3_8 m ρ c).trans (ChainA.src_1 m ρ c)
theorem dst_8 : W8 m ρ c (Proc.devRef .tc main_v6) = val_main_v6 (F := Ideal) x1 :=
  (Keep.v6_8 m ρ c).trans (ChainA.dst_1 m ρ c)
theorem nrm_8 : W8 m ρ c (Proc.devRef .tc main_v26) = val_main_v26 (F := Ideal) x1 :=
  (Keep.v26_8 m ρ c).trans (ChainA.nrm_1 m ρ c)

/-- The aggregation: every edge's source row of the product, scaled by the edge's weight, added into the edge's
    destination row.  The same host operations in both programs, applied to equal arrays. -/
theorem agg : W9 m ρ c (Proc.devRef .tc main_v72) = val_main_v76 (F := Ideal) x0 x1 x2 x3 x4 x5 x6 := by
  show StableHlo.after hostOps5 (W8 m ρ c) (Proc.devRef .tc main_v72) = _
  after_results_simp
  rw [ChainC.prod m ρ c, src_8 m ρ c, dst_8 m ρ c, nrm_8 m ρ c]
  rfl

/-- The bias vector as a one-row array. -/
theorem bias : W9 m ρ c (Proc.devRef .tc main_v73) = shapeCast S1x128 x7 shapeCasts_S128_S1x128 := by
  show StableHlo.after hostOps5 (W8 m ρ c) (Proc.devRef .tc main_v73) = _
  after_results_simp
  rw [Keep.arg7_8 m ρ c]
  rfl

/-- After the bias-and-tangent region: the reference's activation of this layer. -/
theorem act : W10 m ρ c (Proc.devRef .tc main_v74) = val_main_v80 (F := Ideal) x0 x1 x2 x3 x4 x5 x6 x7 := by
  refine (W10_arr m ρ c 2).trans ((Region5.arr (V9 m ρ) c).trans ?_)
  show tnh (W9 m ρ c (Proc.devRef .tc main_v72)) (W9 m ρ c (Proc.devRef .tc main_v73)) = _
  rw [agg m ρ c, bias m ρ c]
  exact (tnh_host (val_main_v76 (F := Ideal) x0 x1 x2 x3 x4 x5 x6) x7 Cert.ReferenceIdeal.Gen.bcast_S128_S1x128_1 Cert.ReferenceIdeal.Gen.bcast_S1x128_S50000x128_0_1
    shapeCasts_S128_S1x128).symm

/-- The third activation, kept across the reshape of the first head's bias. -/
theorem act_11 : W11 m ρ c (Proc.devRef .tc main_v74) = val_main_v80 (F := Ideal) x0 x1 x2 x3 x4 x5 x6 x7 :=
  (Keep.v74_11 m ρ c).trans (act m ρ c)

/-- The first head's bias vector as a one-row array. -/
theorem bias1 : W11 m ρ c (Proc.devRef .tc main_v75) = shapeCast S1x64 x9 shapeCasts_S64_S1x64 := by
  show StableHlo.after hostOps6 (W10 m ρ c) (Proc.devRef .tc main_v75) = _
  after_results_simp
  rw [Keep.arg9_10 m ρ c]
  rfl

/-- After the first head's region: the activation times the head's matrix, plus its bias. -/
theorem head1 : W12 m ρ c (Proc.devRef .tc main_v76) = val_main_v84 (F := Ideal) x0 x1 x2 x3 x4 x5 x6 x7 x8 x9 := by
  refine (W12_arr m ρ c 3).trans ((Region6.arr (V11 m ρ) c).trans ?_)
  show aff (W11 m ρ c (Proc.devRef .tc main_v74)) (W11 m ρ c (Proc.devRef .tc main_arg8)) (W11 m ρ c (Proc.devRef .tc main_v75)) = _
  rw [act_11 m ρ c, Keep.arg8_11 m ρ c, bias1 m ρ c]
  exact (aff_host (φ₁ := .f32) (φ₂ := .f32) Cert.ReferenceIdeal.dot_S50000x128_S128x64_S50000x64_1_0_0_1_n_n none .single
    (Dot2.rank_contr _ rfl) (Dot2.size_contr _ rfl _) (Dot2.lhs0 _ rfl rfl) (Dot2.lhs1 _ rfl _) (Dot2.rhs0 _ rfl _) (Dot2.rhs1 _ rfl rfl rfl rfl) (val_main_v80 (F := Ideal) x0 x1 x2 x3 x4 x5 x6 x7) x8 x9 Cert.ReferenceIdeal.Gen.bcast_S64_S1x64_1 Cert.ReferenceIdeal.Gen.bcast_S1x64_S50000x64_0_1
    shapeCasts_S64_S1x64).symm

/-- The first head's output, kept across the reshape of the second head's bias. -/
theorem head1_13 : W13 m ρ c (Proc.devRef .tc main_v76) = val_main_v84 (F := Ideal) x0 x1 x2 x3 x4 x5 x6 x7 x8 x9 :=
  (Keep.v76_13 m ρ c).trans (head1 m ρ c)

/-- The second head's bias vector as a one-row array. -/
theorem bias2 : W13 m ρ c (Proc.devRef .tc main_v77) = shapeCast S1x12 x11 shapeCasts_S12_S1x12 := by
  show StableHlo.after hostOps7 (W12 m ρ c) (Proc.devRef .tc main_v77) = _
  after_results_simp
  rw [Keep.arg11_12 m ρ c]
  rfl

/-- THE RESULT: the result buffer at the last boundary holds the reference's last stage of the same arguments. -/
theorem result : W14 m ρ c (Proc.devRef .tc main_v78) = val_main_v88 (F := Ideal) x0 x1 x2 x3 x4 x5 x6 x7 x8 x9 x10 x11 := by
  refine (W14_arr m ρ c 3).trans ((Region7.arr (V13 m ρ) c).trans ?_)
  show aff (W13 m ρ c (Proc.devRef .tc main_v76)) (W13 m ρ c (Proc.devRef .tc main_arg10)) (W13 m ρ c (Proc.devRef .tc main_v77)) = _
  rw [head1_13 m ρ c, Keep.arg10_13 m ρ c, bias2 m ρ c]
  exact (aff_host (φ₁ := .f32) (φ₂ := .f32) Cert.ReferenceIdeal.dot_S50000x64_S64x12_S50000x12_1_0_0_1_n_n none .single
    (Dot2.rank_contr _ rfl) (Dot2.size_contr _ rfl _) (Dot2.lhs0 _ rfl rfl) (Dot2.lhs1 _ rfl _) (Dot2.rhs0 _ rfl _) (Dot2.rhs1 _ rfl rfl rfl rfl) (val_main_v84 (F := Ideal) x0 x1 x2 x3 x4 x5 x6 x7 x8 x9) x10 x11 Cert.ReferenceIdeal.Gen.bcast_S12_S1x12_1 Cert.ReferenceIdeal.Gen.bcast_S1x12_S50000x12_0_1
    shapeCasts_S12_S1x12).symm

end Cert.KernelIdeal.ChainD

end
-- ==== Proof.lean ====
/-
  A three-layer graph convolution network with two linear heads, computed two ways.

  Both programs first turn the edge list into source indices, destination indices and edge weights
  1 / sqrt(deg src · deg dst), one self-loop per node appended.  A layer multiplies the node features by a weight
  matrix, adds into every node the weighted rows of its in-neighbours, adds a bias and takes the hyperbolic
  tangent; two linear heads follow.  The reference does all of it with host operations on whole 50000-row arrays.
  The kernel does the products, the bias-and-tangent steps and the heads in pallas regions of ten bands of 5000 rows
  and the edge traffic with the same host operations as the reference.

  Every layer the regions compute is row-wise, so a band of its result is its result on the band, and the ten bands
  tile the rows: each region leaves the whole-array layer.  On extended reals the roundings on the way into the
  matrix unit are the identity, the matrix unit's product onto a zero accumulator and the host's dot_general are the
  same sums, and both tangents are the one function; so at every segment boundary the kernel's buffers hold the
  reference's stages, and the two results are equal.  No law that needs finite entries is used.
-/
import proofs.«169234_j1898375545326_1_alg».proof.Defs
import proofs.«169234_j1898375545326_1_alg».proof.Proof.Gen.Kernel
import proofs.«169234_j1898375545326_1_alg».proof.Proof.Gen.Kernel.Frame
import proofs.«169234_j1898375545326_1_alg».proof.Proof.Gen.KernelIdeal
import proofs.«169234_j1898375545326_1_alg».proof.Proof.Gen.KernelIdeal.Frame
import proofs.«169234_j1898375545326_1_alg».proof.Proof.Gen.ReferenceIdeal
import proofs.«169234_j1898375545326_1_alg».proof.Proof.Gen.ReferenceIdeal.Run
import proofs.«169234_j1898375545326_1_alg».proof.Proof.Gen.ReferenceIdeal.Read
import proofs.«169234_j1898375545326_1_alg».proof.Proof.Gen.Pre_finite_inputs
import proofs.«169234_j1898375545326_1_alg».proof.Proof.NamedRun
import proofs.«169234_j1898375545326_1_alg».proof.Proof.ChainD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result buffer ends at the last boundary's contents, which is the reference's last stage of the
    kernel's arguments; the reference's ends at that stage of its own arguments; the arguments agree. -/
theorem algebraic : Cert.algebraic_KernelIdeal_ReferenceIdeal := by
  intro m ρ m' ρ' _ hagree
  refine ⟨fun c => Cert.KernelIdeal.Gen.W14 m ρ c (Proc.devRef .tc Cert.KernelIdeal.main_v78),
    Cert.KernelIdeal.NamedRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.ChainD.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
